-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x6400000 : Shape := ⟨2, ![2, 6400000]⟩
abbrev S6400000 : Shape := ⟨1, ![6400000]⟩
abbrev S128x12 : Shape := ⟨2, ![128, 12]⟩
abbrev S12 : Shape := ⟨1, ![12]⟩
abbrev S12x6 : Shape := ⟨2, ![12, 6]⟩
abbrev S6 : Shape := ⟨1, ![6]⟩
abbrev S6x3 : Shape := ⟨2, ![6, 3]⟩
abbrev S3 : Shape := ⟨1, ![3]⟩
abbrev S3x1 : Shape := ⟨2, ![3, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S6400000 : S_.BroadcastsInDim S6400000 (![] : Fin 0 → Fin S6400000.rank)
  reducesTo_S6400000_S_d0 : S6400000.ReducesTo [0] S_
  bcast_S_S128x12 : S_.BroadcastsInDim S128x12 (![] : Fin 0 → Fin S128x12.rank)
  reducesTo_S128x12_S_d0_1 : S128x12.ReducesTo [0, 1] S_
  bcast_S_S12 : S_.BroadcastsInDim S12 (![] : Fin 0 → Fin S12.rank)
  reducesTo_S12_S_d0 : S12.ReducesTo [0] S_
  bcast_S_S12x6 : S_.BroadcastsInDim S12x6 (![] : Fin 0 → Fin S12x6.rank)
  reducesTo_S12x6_S_d0_1 : S12x6.ReducesTo [0, 1] S_
  bcast_S_S6 : S_.BroadcastsInDim S6 (![] : Fin 0 → Fin S6.rank)
  reducesTo_S6_S_d0 : S6.ReducesTo [0] S_
  bcast_S_S6x3 : S_.BroadcastsInDim S6x3 (![] : Fin 0 → Fin S6x3.rank)
  reducesTo_S6x3_S_d0_1 : S6x3.ReducesTo [0, 1] S_
  bcast_S_S3 : S_.BroadcastsInDim S3 (![] : Fin 0 → Fin S3.rank)
  reducesTo_S3_S_d0 : S3.ReducesTo [0] S_
  bcast_S_S3x1 : S_.BroadcastsInDim S3x1 (![] : Fin 0 → Fin S3x1.rank)
  reducesTo_S3x1_S_d0_1 : S3x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S3 .f32) (main_arg9 : FVec F S3x1 .f32) (main_arg10 : FVec F S1 .f32) (main_v33 : IVec S_ 1) : IVec S_ 1 :=
  let main_v34 : FVec F S3 .f32 := Host.absf main_arg8
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  let main_v39 : FVec F S3x1 .f32 := Host.absf main_arg9
  let main_cst_14 : FVec F S_ .f32 := constant S_ .f32 0x7F800000#32
  let main_v40 : FVec F S3x1 .f32 := broadcastInDim S3x1 ![] bcast_S_S3x1 main_cst_14
  let main_v41 : IVec S3x1 1 := cmpf .olt main_v39 main_v40
  let main_c_15 : IVec S_ 1 := constantI S_ 1 1#1
  let main_v42 : IVec S_ 1 := (fun x v => Host.reduce IntOp.andi x v reducesTo_S3x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S12x6 .f32) (main_arg6 : FVec F S6 .f32) (main_arg7 : FVec F S6x3 .f32) (main_arg8 : FVec F S3 .f32) (main_arg9 : FVec F S3x1 .f32) (main_arg10 : FVec F S1 .f32) (main_v13 : IVec S_ 1) (main_v16 : IVec S12 1) : IVec S_ 1 :=
  let main_c_5 : IVec S_ 1 := constantI S_ 1 1#1
  let main_v17 : IVec S_ 1 := (fun x v => Host.reduce IntOp.andi x v reducesTo_S12_S_d0 h_S_) main_v16 main_c_5
  let main_v18 : IVec S_ 1 := andi main_v13 main_v17
  let main_v19 : FVec F S12x6 .f32 := Host.absf main_arg5
  let main_cst_6 : FVec F S_ .f32 := constant S_ .f32 0x7F800000#32
  let main_v20 : FVec F S12x6 .f32 := broadcastInDim S12x6 ![] bcast_S_S12x6 main_cst_6
  let main_v21 : IVec S12x6 1 := cmpf .olt main_v19 main_v20
  let main_c_7 : IVec S_ 1 := constantI S_ 1 1#1
  let main_v22 : IVec S_ 1 := (fun x v => Host.reduce IntOp.andi x v reducesTo_S12x6_S_d0_1 h_S_) main_v21 main_c_7
  let main_v23 : IVec S_ 1 := andi main_v18 main_v22
  let main_v24 : FVec F S6 .f32 := Host.absf main_arg6
  let main_cst_8 : FVec F S_ .f32 := constant S_ .f32 0x7F800000#32
  let main_v25 : FVec F S6 .f32 := broadcastInDim S6 ![] bcast_S_S6 main_cst_8
  let main_v26 : IVec S6 1 := cmpf .olt main_v24 main_v25
  let main_c_9 : IVec S_ 1 := constantI S_ 1 1#1
  let main_v27 : IVec S_ 1 := (fun x v => Host.reduce IntOp.andi x v reducesTo_S6_S_d0 h_S_) main_v26 main_c_9
  let main_v28 : IVec S_ 1 := andi main_v23 main_v27
  let main_v29 : FVec F S6x3 .f32 := Host.absf main_arg7
  let main_cst_10 : FVec F S_ .f32 := constant S_ .f32 0x7F800000#32
  let main_v30 : FVec F S6x3 .f32 := broadcastInDim S6x3 ![] bcast_S_S6x3 main_cst_10
  let main_v31 : IVec S6x3 1 := cmpf .olt main_v29 main_v30
  let main_c_11 : IVec S_ 1 := constantI S_ 1 1#1
  let main_v32 : IVec S_ 1 := (fun x v => Host.reduce IntOp.andi x v reducesTo_S6x3_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x6400000 32) (main_arg2 : FVec F S6400000 .f32) (main_arg3 : FVec F S128x12 .f32) (main_arg4 : FVec F S12 .f32) (main_arg5 : FVec F S12x6 .f32) (main_arg6 : FVec F S6 .f32) (main_arg7 : FVec F S6x3 .f32) (main_arg8 : FVec F S3 .f32) (main_arg9 : FVec F S3x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S6400000 .f32 := Host.absf main_arg2
  let main_cst_0 : FVec F S_ .f32 := constant S_ .f32 0x7F800000#32
  let main_v5 : FVec F S6400000 .f32 := broadcastInDim S6400000 ![] bcast_S_S6400000 main_cst_0
  let main_v6 : IVec S6400000 1 := cmpf .olt main_v4 main_v5
  let main_c_1 : IVec S_ 1 := constantI S_ 1 1#1
  let main_v7 : IVec S_ 1 := (fun x v => Host.reduce IntOp.andi x v reducesTo_S6400000_S_d0 h_S_) main_v6 main_c_1
  let main_v8 : IVec S_ 1 := andi main_v3 main_v7
  let main_v9 : FVec F S128x12 .f32 := Host.absf main_arg3
  let main_cst_2 : FVec F S_ .f32 := constant S_ .f32 0x7F800000#32
  let main_v10 : FVec F S128x12 .f32 := broadcastInDim S128x12 ![] bcast_S_S128x12 main_cst_2
  let main_v11 : IVec S128x12 1 := cmpf .olt main_v9 main_v10
  let main_c_3 : IVec S_ 1 := constantI S_ 1 1#1
  let main_v12 : IVec S_ 1 := (fun x v => Host.reduce IntOp.andi x v reducesTo_S128x12_S_d0_1 h_S_) main_v11 main_c_3
  let main_v13 : IVec S_ 1 := andi main_v8 main_v12
  let main_v14 : FVec F S12 .f32 := Host.absf main_arg4
  let main_cst_4 : FVec F S_ .f32 := constant S_ .f32 0x7F800000#32
  let main_v15 : FVec F S12 .f32 := broadcastInDim S12 ![] bcast_S_S12 main_cst_4
  let main_v16 : IVec S12 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x6400000 : Shape := ⟨2, ![2, 6400000]⟩
abbrev S6400000 : Shape := ⟨1, ![6400000]⟩
abbrev S128x12 : Shape := ⟨2, ![128, 12]⟩
abbrev S12 : Shape := ⟨1, ![12]⟩
abbrev S12x6 : Shape := ⟨2, ![12, 6]⟩
abbrev S6 : Shape := ⟨1, ![6]⟩
abbrev S6x3 : Shape := ⟨2, ![6, 3]⟩
abbrev S3 : Shape := ⟨1, ![3]⟩
abbrev S3x1 : Shape := ⟨2, ![3, 1]⟩
abbrev S1 : Shape := ⟨1, ![1]⟩
abbrev S1x6400000 : Shape := ⟨2, ![1, 6400000]⟩
abbrev S100000 : Shape := ⟨1, ![100000]⟩
abbrev S6500000 : Shape := ⟨1, ![6500000]⟩
abbrev S_ : Shape := ⟨0, ![]⟩
abbrev S6500000x1 : Shape := ⟨2, ![6500000, 1]⟩
abbrev S100000x12 : Shape := ⟨2, ![100000, 12]⟩
abbrev S10000x128 : Shape := ⟨2, ![10000, 128]⟩
abbrev S10000x12 : Shape := ⟨2, ![10000, 12]⟩
abbrev S6500000x12 : Shape := ⟨2, ![6500000, 12]⟩
abbrev S1x12 : Shape := ⟨2, ![1, 12]⟩
abbrev S100000x6 : Shape := ⟨2, ![100000, 6]⟩
abbrev S10000x6 : Shape := ⟨2, ![10000, 6]⟩
abbrev S6500000x6 : Shape := ⟨2, ![6500000, 6]⟩
abbrev S1x6 : Shape := ⟨2, ![1, 6]⟩
abbrev S100000x3 : Shape := ⟨2, ![100000, 3]⟩
abbrev S10000x3 : Shape := ⟨2, ![10000, 3]⟩
abbrev S6500000x3 : Shape := ⟨2, ![6500000, 3]⟩
abbrev S1x3 : Shape := ⟨2, ![1, 3]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 118
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x6400000, .i32⟩
  | .hbm, ⟨2, _⟩ => ⟨S6400000, .f32⟩
  | .hbm, ⟨3, _⟩ => ⟨S128x12, .f32⟩
  | .hbm, ⟨4, _⟩ => ⟨S12, .f32⟩
  | .hbm, ⟨5, _⟩ => ⟨S12x6, .f32⟩
  | .hbm, ⟨6, _⟩ => ⟨S6, .f32⟩
  | .hbm, ⟨7, _⟩ => ⟨S6x3, .f32⟩
  | .hbm, ⟨8, _⟩ => ⟨S3, .f32⟩
  | .hbm, ⟨9, _⟩ => ⟨S3x1, .f32⟩
  | .hbm, ⟨10, _⟩ => ⟨S1, .f32⟩
  | .hbm, ⟨11, _⟩ => ⟨S1x6400000, .i32⟩
  | .hbm, ⟨12, _⟩ => ⟨S6400000, .i32⟩
  | .hbm, ⟨13, _⟩ => ⟨S1x6400000, .i32⟩
  | .hbm, ⟨14, _⟩ => ⟨S6400000, .i32⟩
  | .hbm, ⟨15, _⟩ => ⟨S100000, .i32⟩
  | .hbm, ⟨16, _⟩ => ⟨S6500000, .i32⟩
  | .hbm, ⟨17, _⟩ => ⟨S6500000, .i32⟩
  | .hbm, ⟨18, _⟩ => ⟨S_, .f32⟩
  | .hbm, ⟨19, _⟩ => ⟨S100000, .f32⟩
  | .hbm, ⟨20, _⟩ => ⟨S6500000, .f32⟩
  | .hbm, ⟨21, _⟩ => ⟨S_, .f32⟩
  | .hbm, ⟨22, _⟩ => ⟨S100000, .f32⟩
  | .hbm, ⟨23, _⟩ => ⟨S6500000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .i1⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .i32⟩
  | .hbm, ⟨41, _⟩ => ⟨S6500000, .i32⟩
  | .hbm, ⟨42, _⟩ => ⟨S6500000, .i1⟩
  | .hbm, ⟨43, _⟩ => ⟨S_, .i32⟩
  | .hbm, ⟨44, _⟩ => ⟨S6500000, .i32⟩
  | .hbm, ⟨45, _⟩ => ⟨S6500000, .i32⟩
  | .hbm, ⟨46, _⟩ => ⟨S6500000, .i32⟩
  | .hbm, ⟨47, _⟩ => ⟨S6500000x1, .i32⟩
  | .hbm, ⟨48, _⟩ => ⟨S6500000, .f32⟩
  | .hbm, ⟨49, _⟩ => ⟨S6500000, .f32⟩
  | .hbm, ⟨50, _⟩ => ⟨S_, .i32⟩
  | .hbm, ⟨51, _⟩ => ⟨S6500000, .i32⟩
  | .hbm, ⟨52, _⟩ => ⟨S6500000, .i1⟩
  | .hbm, ⟨53, _⟩ => ⟨S_, .i32⟩
  | .hbm, ⟨54, _⟩ => ⟨S6500000, .i32⟩
  | .hbm, ⟨55, _⟩ => ⟨S6500000, .i32⟩
  | .hbm, ⟨56, _⟩ => ⟨S6500000, .i32⟩
  | .hbm, ⟨57, _⟩ => ⟨S6500000x1, .i32⟩
  | .hbm, ⟨58, _⟩ => ⟨S6500000, .f32⟩
  | .hbm, ⟨59, _⟩ => ⟨S6500000, .f32⟩
  | .hbm, ⟨60, _⟩ => ⟨S100000x12, .f32⟩
  | .hbm, ⟨61, _⟩ => ⟨S6500000x1, .f32⟩
  | .hbm, ⟨62, _⟩ => ⟨S_, .i32⟩
  | .hbm, ⟨63, _⟩ => ⟨S6500000, .i32⟩
  | .hbm, ⟨64, _⟩ => ⟨S6500000, .i1⟩
  | .hbm, ⟨65, _⟩ => ⟨S_, .i32⟩
  | .hbm, ⟨66, _⟩ => ⟨S6500000, .i32⟩
  | .hbm, ⟨67, _⟩ => ⟨S6500000, .i32⟩
  | .hbm, ⟨68, _⟩ => ⟨S6500000, .i32⟩
  | .hbm, ⟨69, _⟩ => ⟨S6500000x1, .i32⟩
  | .hbm, ⟨70, _⟩ => ⟨S6500000x12, .f32⟩
  | .hbm, ⟨71, _⟩ => ⟨S6500000x12, .f32⟩
  | .hbm, ⟨72, _⟩ => ⟨S6500000x12, .f32⟩
  | .hbm, ⟨73, _⟩ => ⟨S_, .f32⟩
  | .hbm, ⟨74, _⟩ => ⟨S100000x12, .f32⟩
  | .hbm, ⟨75, _⟩ => ⟨S6500000x1, .i32⟩
  | .hbm, ⟨76, _⟩ => ⟨S100000x12, .f32⟩
  | .hbm, ⟨77, _⟩ => ⟨S1x12, .f32⟩
  | .hbm, ⟨78, _⟩ => ⟨S100000x6, .f32⟩
  | .hbm, ⟨79, _⟩ => ⟨S6500000x1, .f32⟩
  | .hbm, ⟨80, _⟩ => ⟨S_, .i32⟩
  | .hbm, ⟨81, _⟩ => ⟨S6500000, .i32⟩
  | .hbm, ⟨82, _⟩ => ⟨S6500000, .i1⟩
  | .hbm, ⟨83, _⟩ => ⟨S_, .i32⟩
  | .hbm, ⟨84, _⟩ => ⟨S6500000, .i32⟩
  | .hbm, ⟨85, _⟩ => ⟨S6500000, .i32⟩
  | .hbm, ⟨86, _⟩ => ⟨S6500000, .i32⟩
  | .hbm, ⟨87, _⟩ => ⟨S6500000x1, .i32⟩
  | .hbm, ⟨88, _⟩ => ⟨S6500000x6, .f32⟩
  | .hbm, ⟨89, _⟩ => ⟨S6500000x6, .f32⟩
  | .hbm, ⟨90, _⟩ => ⟨S6500000x6, .f32⟩
  | .hbm, ⟨91, _⟩ => ⟨S_, .f32⟩
  | .hbm, ⟨92, _⟩ => ⟨S100000x6, .f32⟩
  | .hbm, ⟨93, _⟩ => ⟨S6500000x1, .i32⟩
  | .hbm, ⟨94, _⟩ => ⟨S100000x6, .f32⟩
  | .hbm, ⟨95, _⟩ => ⟨S1x6, .f32⟩
  | .hbm, ⟨96, _⟩ => ⟨S100000x3, .f32⟩
  | .hbm, ⟨97, _⟩ => ⟨S6500000x1, .f32⟩
  | .hbm, ⟨98, _⟩ => ⟨S_, .i32⟩
  | .hbm, ⟨99, _⟩ => ⟨S6500000, .i32⟩
  | .hbm, ⟨100, _⟩ => ⟨S6500000, .i1⟩
  | .hbm, ⟨101, _⟩ => ⟨S_, .i32⟩
  | .hbm, ⟨102, _⟩ => ⟨S6500000, .i32⟩
  | .hbm, ⟨103, _⟩ => ⟨S6500000, .i32⟩
  | .hbm, ⟨104, _⟩ => ⟨S6500000, .i32⟩
  | .hbm, ⟨105, _⟩ => ⟨S6500000x1, .i32⟩
  | .hbm, ⟨106, _⟩ => ⟨S6500000x3, .f32⟩
  | .hbm, ⟨107, _⟩ => ⟨S6500000x3, .f32⟩
  | .hbm, ⟨108, _⟩ => ⟨S6500000x3, .f32⟩
  | .hbm, ⟨109, _⟩ => ⟨S_, .f32⟩
  | .hbm, ⟨110, _⟩ => ⟨S100000x3, .f32⟩
  | .hbm, ⟨111, _⟩ => ⟨S6500000x1, .i32⟩
  | .hbm, ⟨112, _⟩ => ⟨S100000x3, .f32⟩
  | .hbm, ⟨113, _⟩ => ⟨S1x3, .f32⟩
  | .hbm, ⟨114, _⟩ => ⟨S100000x1, .f32⟩
  | .hbm, ⟨115, _⟩ => ⟨S1x1, .f32⟩
  | .hbm, ⟨116, _⟩ => ⟨S100000x1, .f32⟩
  | .hbm, ⟨117, _⟩ => ⟨S100000, .f32⟩
  | .local _ .vmem, ⟨0, _⟩ => ⟨S10000x128, .f32⟩
  | .local _ .vmem, ⟨1, _⟩ => ⟨S10000x128, .f32⟩
  | .local _ .vmem, ⟨2, _⟩ => ⟨S128x12, .f32⟩
  | .local _ .vmem, ⟨3, _⟩ => ⟨S10000x12, .f32⟩
  | .local _ .vmem, ⟨4, _⟩ => ⟨S10000x12, .f32⟩
  | .local _ .vmem, ⟨5, _⟩ => ⟨S10000x12, .f32⟩
  | .local _ .vmem, ⟨6, _⟩ => ⟨S10000x12, .f32⟩
  | .local _ .vmem, ⟨7, _⟩ => ⟨S1x12, .f32⟩
  | .local _ .vmem, ⟨8, _⟩ => ⟨S12x6, .f32⟩
  | .local _ .vmem, ⟨9, _⟩ => ⟨S10000x6, .f32⟩
  | .local _ .vmem, ⟨10, _⟩ => ⟨S10000x6, .f32⟩
  | .local _ .vmem, ⟨11, _⟩ => ⟨S10000x6, .f32⟩
  | .local _ .vmem, ⟨12, _⟩ => ⟨S10000x6, .f32⟩
  | .local _ .vmem, ⟨13, _⟩ => ⟨S1x6, .f32⟩
  | .local _ .vmem, ⟨14, _⟩ => ⟨S6x3, .f32⟩
  | .local _ .vmem, ⟨15, _⟩ => ⟨S10000x3, .f32⟩
  | .local _ .vmem, ⟨16, _⟩ => ⟨S10000x3, .f32⟩
  | .local _ .vmem, ⟨17, _⟩ => ⟨S10000x3, .f32⟩
  | .local _ .vmem, ⟨18, _⟩ => ⟨S10000x3, .f32⟩
  | .local _ .vmem, ⟨19, _⟩ => ⟨S1x3, .f32⟩
  | .local _ .vmem, ⟨20, _⟩ => ⟨S3x1, .f32⟩
  | .local _ .vmem, ⟨21, _⟩ => ⟨S10000x1, .f32⟩
  | .local _ .vmem, ⟨22, _⟩ => ⟨S10000x1, .f32⟩
  | .local _ .vmem, ⟨23, _⟩ => ⟨S10000x1, .f32⟩
  | .local _ .vmem, ⟨24, _⟩ => ⟨S10000x1, .f32⟩
  | .local _ .vmem, ⟨25, _⟩ => ⟨S1x1, .f32⟩
  | .local _ .vmem, ⟨26, _⟩ => ⟨S10000x1, .f32⟩
  | .local _ .vmem, ⟨27, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v18 : Ref sig .tc := ⟨.hbm, 39, rfl⟩
abbrev main_c : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_c_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_11 : Ref sig .tc := ⟨.hbm, 80, rfl⟩
abbrev main_v52 : Ref sig .tc := ⟨.hbm, 81, rfl⟩
abbrev main_v53 : Ref sig .tc := ⟨.hbm, 82, rfl⟩
abbrev main_c_12 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_13 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_14 : Ref sig .tc := ⟨.hbm, 98, rfl⟩
abbrev main_v67 : Ref sig .tc := ⟨.hbm, 99, rfl⟩
abbrev main_v68 : Ref sig .tc := ⟨.hbm, 100, rfl⟩
abbrev main_c_15 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_16 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x12 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x12 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x12 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S12x6 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x6 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x6 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x6 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S6x3 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x3 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x3 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S3x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S100000_S6500000_d0 : Shape.Concatenates [S6400000, S100000] S6500000 0
  bcast_S_S100000 : S_.BroadcastsInDim S100000 (![] : Fin 0 → Fin S100000.rank)
  bcast_S6500000_S6500000x1_0 : S6500000.BroadcastsInDim S6500000x1 (![0] : Fin 1 → Fin S6500000x1.rank)
  bcast_S_S6500000 : S_.BroadcastsInDim S6500000 (![] : Fin 0 → Fin S6500000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x12_S128x12_0_0 : ∀ a, (![0, 0] : Fin 2 → Nat) a + S128x12.size a ≤ S128x12.size a
  h_S128x12 : 0 < S128x12.numel
  inb_S10000x12_S10000x12_0_0 : ∀ a, (![0, 0] : Fin 2 → Nat) a + S10000x12.size a ≤ S10000x12.size a
  h_S10000x12 : 0 < S10000x12.numel
  bcast_S6500000x1_S6500000x12_0_1 : S6500000x1.BroadcastsInDim S6500000x12 (![0, 1] : Fin 2 → Fin S6500000x12.rank)
  bcast_S_S100000x12 : S_.BroadcastsInDim S100000x12 (![] : Fin 0 → Fin S100000x12.rank)
  shapeCasts_S12_S1x12 : S12.ShapeCasts S1x12
  shapeCasts_S10000x12_S10000x12 : S10000x12.ShapeCasts S10000x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S10000x12 : S1x12.Broadcasts S10000x12
  inb_S12x6_S12x6_0_0 : ∀ a, (![0, 0] : Fin 2 → Nat) a + S12x6.size a ≤ S12x6.size a
  h_S12x6 : 0 < S12x6.numel
  inb_S10000x6_S10000x6_0_0 : ∀ a, (![0, 0] : Fin 2 → Nat) a + S10000x6.size a ≤ S10000x6.size a
  h_S10000x6 : 0 < S10000x6.numel
  bcast_S6500000x1_S6500000x6_0_1 : S6500000x1.BroadcastsInDim S6500000x6 (![0, 1] : Fin 2 → Fin S6500000x6.rank)
  bcast_S_S100000x6 : S_.BroadcastsInDim S100000x6 (![] : Fin 0 → Fin S100000x6.rank)
  shapeCasts_S6_S1x6 : S6.ShapeCasts S1x6
  shapeCasts_S10000x6_S10000x6 : S10000x6.ShapeCasts S10000x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S10000x6 : S1x6.Broadcasts S10000x6
  inb_S6x3_S6x3_0_0 : ∀ a, (![0, 0] : Fin 2 → Nat) a + S6x3.size a ≤ S6x3.size a
  h_S6x3 : 0 < S6x3.numel
  inb_S10000x3_S10000x3_0_0 : ∀ a, (![0, 0] : Fin 2 → Nat) a + S10000x3.size a ≤ S10000x3.size a
  h_S10000x3 : 0 < S10000x3.numel
  bcast_S6500000x1_S6500000x3_0_1 : S6500000x1.BroadcastsInDim S6500000x3 (![0, 1] : Fin 2 → Fin S6500000x3.rank)
  bcast_S_S100000x3 : S_.BroadcastsInDim S100000x3 (![] : Fin 0 → Fin S100000x3.rank)
  shapeCasts_S3_S1x3 : S3.ShapeCasts S1x3
  shapeCasts_S10000x3_S10000x3 : S10000x3.ShapeCasts S10000x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S10000x3 : S1x3.Broadcasts S10000x3
  inb_S3x1_S3x1_0_0 : ∀ a, (![0, 0] : Fin 2 → Nat) a + S3x1.size a ≤ S3x1.size a
  h_S3x1 : 0 < S3x1.numel
  inb_S10000x1_S10000x1_0_0 : ∀ a, (![0, 0] : Fin 2 → Nat) a + S10000x1.size a ≤ S10000x1.size a
  h_S10000x1 : 0 < S10000x1.numel
  shapeCasts_S1_S1x1 : S1.ShapeCasts S1x1
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  shapeCasts_S100000x1_S100000 : S100000x1.ShapeCasts S100000
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S10000x128_S128x12_S10000x12_1_0_0_1_n_n_wf : DotDims.WF S10000x128 S128x12 S10000x12 [1] [0] [0] [1] [] []
  gather_S100000x12_S6500000x1_S6500000x12_1_0_n_n_0_1_112_wf : GatherDims.WF S100000x12 S6500000x1 S6500000x12 [1] [0] [] [0] [] 1 ![1, 12]
  scatter_S100000x12_S6500000x1_S6500000x12_1_0_0_1_wf : ScatterDims.WF S100000x12 S6500000x1 S6500000x12 [1] [0] [0] 1
  dot_S10000x12_S12x6_S10000x6_1_0_0_1_n_n_wf : DotDims.WF S10000x12 S12x6 S10000x6 [1] [0] [0] [1] [] []
  gather_S100000x6_S6500000x1_S6500000x6_1_0_n_n_0_1_16_wf : GatherDims.WF S100000x6 S6500000x1 S6500000x6 [1] [0] [] [0] [] 1 ![1, 6]
  scatter_S100000x6_S6500000x1_S6500000x6_1_0_0_1_wf : ScatterDims.WF S100000x6 S6500000x1 S6500000x6 [1] [0] [0] 1
  dot_S10000x6_S6x3_S10000x3_1_0_0_1_n_n_wf : DotDims.WF S10000x6 S6x3 S10000x3 [1] [0] [0] [1] [] []
  gather_S100000x3_S6500000x1_S6500000x3_1_0_n_n_0_1_13_wf : GatherDims.WF S100000x3 S6500000x1 S6500000x3 [1] [0] [] [0] [] 1 ![1, 3]
  scatter_S100000x3_S6500000x1_S6500000x3_1_0_0_1_wf : ScatterDims.WF S100000x3 S6500000x1 S6500000x3 [1] [0] [0] 1
  dot_S10000x3_S3x1_S10000x1_1_0_0_1_n_n_wf : DotDims.WF S10000x3 S3x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x12.size a ≤ S128x12.size a
  hwx0_1 : ∀ i : grid0.Coords, EltTy.bits .f32 = 32 ∨ (Rect.block (s := S128x12) S128x12.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x12.size a ≤ S100000x12.size a
  hwx0_2 : ∀ i : grid0.Coords, EltTy.bits .f32 = 32 ∨ (Rect.block (s := S100000x12) S10000x12.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x12.size a ≤ S100000x12.size a
  hwx1_0 : ∀ i : grid1.Coords, EltTy.bits .f32 = 32 ∨ (Rect.block (s := S100000x12) S10000x12.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x12.size a ≤ S1x12.size a
  hwx1_1 : ∀ i : grid1.Coords, EltTy.bits .f32 = 32 ∨ (Rect.block (s := S1x12) S1x12.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S12x6.size a ≤ S12x6.size a
  hwx1_2 : ∀ i : grid1.Coords, EltTy.bits .f32 = 32 ∨ (Rect.block (s := S12x6) S12x6.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x6.size a ≤ S100000x6.size a
  hwx1_3 : ∀ i : grid1.Coords, EltTy.bits .f32 = 32 ∨ (Rect.block (s := S100000x6) S10000x6.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x6.size a ≤ S100000x6.size a
  hwx2_0 : ∀ i : grid2.Coords, EltTy.bits .f32 = 32 ∨ (Rect.block (s := S100000x6) S10000x6.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x6.size a ≤ S1x6.size a
  hwx2_1 : ∀ i : grid2.Coords, EltTy.bits .f32 = 32 ∨ (Rect.block (s := S1x6) S1x6.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S6x3.size a ≤ S6x3.size a
  hwx2_2 : ∀ i : grid2.Coords, EltTy.bits .f32 = 32 ∨ (Rect.block (s := S6x3) S6x3.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x3.size a ≤ S100000x3.size a
  hwx2_3 : ∀ i : grid2.Coords, EltTy.bits .f32 = 32 ∨ (Rect.block (s := S100000x3) S10000x3.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x3.size a ≤ S100000x3.size a
  hwx3_0 : ∀ i : grid3.Coords, EltTy.bits .f32 = 32 ∨ (Rect.block (s := S100000x3) S10000x3.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x3.size a ≤ S1x3.size a
  hwx3_1 : ∀ i : grid3.Coords, EltTy.bits .f32 = 32 ∨ (Rect.block (s := S1x3) S1x3.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S3x1.size a ≤ S3x1.size a
  hwx3_2 : ∀ i : grid3.Coords, EltTy.bits .f32 = 32 ∨ (Rect.block (s := S3x1) S3x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x1.size a ≤ S100000x1.size a
  hwx3_3 : ∀ i : grid3.Coords, EltTy.bits .f32 = 32 ∨ (Rect.block (s := S100000x1) S10000x1.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x1.size a ≤ S100000x1.size a
  hwx4_0 : ∀ i : grid4.Coords, EltTy.bits .f32 = 32 ∨ (Rect.block (s := S100000x1) S10000x1.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x1.size a ≤ S1x1.size a
  hwx4_1 : ∀ i : grid4.Coords, EltTy.bits .f32 = 32 ∨ (Rect.block (s := S1x1) S1x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S10000x128_S128x12_S10000x12_1_0_0_1_n_n : DotDims S10000x128 S128x12 S10000x12 where
  lhsContracting := [1]
  rhsContracting := [0]
  lhsNonContracting := [0]
  rhsNonContracting := [1]
  lhsBatch := []
  rhsBatch := []
  wf := dot_S10000x128_S128x12_S10000x12_1_0_0_1_n_n_wf
def gather_S100000x12_S6500000x1_S6500000x12_1_0_n_n_0_1_112 : GatherDims S100000x12 S6500000x1 S6500000x12 where
  offsetDims := [1]
  collapsedSliceDims := [0]
  operandBatchingDims := []
  startIndicesBatchingDims := []
  startIndexMap := [0]
  indexVectorDim := 1
  sliceSizes := ![1, 12]
  wf := gather_S100000x12_S6500000x1_S6500000x12_1_0_n_n_0_1_112_wf
def scatter_S100000x12_S6500000x1_S6500000x12_1_0_0_1 : ScatterDims S100000x12 S6500000x1 S6500000x12 where
  updateWindowDims := [1]
  insertedWindowDims := [0]
  scatterDimsToOperandDims := [0]
  indexVectorDim := 1
  wf := scatter_S100000x12_S6500000x1_S6500000x12_1_0_0_1_wf
def dot_S10000x12_S12x6_S10000x6_1_0_0_1_n_n : DotDims S10000x12 S12x6 S10000x6 where
  lhsContracting := [1]
  rhsContracting := [0]
  lhsNonContracting := [0]
  rhsNonContracting := [1]
  lhsBatch := []
  rhsBatch := []
  wf := dot_S10000x12_S12x6_S10000x6_1_0_0_1_n_n_wf
def gather_S100000x6_S6500000x1_S6500000x6_1_0_n_n_0_1_16 : GatherDims S100000x6 S6500000x1 S6500000x6 where
  offsetDims := [1]
  collapsedSliceDims := [0]
  operandBatchingDims := []
  startIndicesBatchingDims := []
  startIndexMap := [0]
  indexVectorDim := 1
  sliceSizes := ![1, 6]
  wf := gather_S100000x6_S6500000x1_S6500000x6_1_0_n_n_0_1_16_wf
def scatter_S100000x6_S6500000x1_S6500000x6_1_0_0_1 : ScatterDims S100000x6 S6500000x1 S6500000x6 where
  updateWindowDims := [1]
  insertedWindowDims := [0]
  scatterDimsToOperandDims := [0]
  indexVectorDim := 1
  wf := scatter_S100000x6_S6500000x1_S6500000x6_1_0_0_1_wf
def dot_S10000x6_S6x3_S10000x3_1_0_0_1_n_n : DotDims S10000x6 S6x3 S10000x3 where
  lhsContracting := [1]
  rhsContracting := [0]
  lhsNonContracting := [0]
  rhsNonContracting := [1]
  lhsBatch := []
  rhsBatch := []
  wf := dot_S10000x6_S6x3_S10000x3_1_0_0_1_n_n_wf
def gather_S100000x3_S6500000x1_S6500000x3_1_0_n_n_0_1_13 : GatherDims S100000x3 S6500000x1 S6500000x3 where
  offsetDims := [1]
  collapsedSliceDims := [0]
  operandBatchingDims := []
  startIndicesBatchingDims := []
  startIndexMap := [0]
  indexVectorDim := 1
  sliceSizes := ![1, 3]
  wf := gather_S100000x3_S6500000x1_S6500000x3_1_0_n_n_0_1_13_wf
def scatter_S100000x3_S6500000x1_S6500000x3_1_0_0_1 : ScatterDims S100000x3 S6500000x1 S6500000x3 where
  updateWindowDims := [1]
  insertedWindowDims := [0]
  scatterDimsToOperandDims := [0]
  indexVectorDim := 1
  wf := scatter_S100000x3_S6500000x1_S6500000x3_1_0_0_1_wf
def dot_S10000x3_S3x1_S10000x1_1_0_0_1_n_n : DotDims S10000x3 S3x1 S10000x1 where
  lhsContracting := [1]
  rhsContracting := [0]
  lhsNonContracting := [0]
  rhsNonContracting := [1]
  lhsBatch := []
  rhsBatch := []
  wf := dot_S10000x3_S3x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x12.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x12.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x12.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S12x6.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S10000x6.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v63) S10000x6.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1x6.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S6x3.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S10000x3.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v78) S10000x3.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S1x3.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S3x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S10000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v80) S10000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81) S1x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v82) S10000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x6400000 : Shape := ⟨2, ![2, 6400000]⟩
abbrev S6400000 : Shape := ⟨1, ![6400000]⟩
abbrev S128x12 : Shape := ⟨2, ![128, 12]⟩
abbrev S12 : Shape := ⟨1, ![12]⟩
abbrev S12x6 : Shape := ⟨2, ![12, 6]⟩
abbrev S6 : Shape := ⟨1, ![6]⟩
abbrev S6x3 : Shape := ⟨2, ![6, 3]⟩
abbrev S3 : Shape := ⟨1, ![3]⟩
abbrev S3x1 : Shape := ⟨2, ![3, 1]⟩
abbrev S1 : Shape := ⟨1, ![1]⟩
abbrev S1x6400000 : Shape := ⟨2, ![1, 6400000]⟩
abbrev S100000 : Shape := ⟨1, ![100000]⟩
abbrev S6500000 : Shape := ⟨1, ![6500000]⟩
abbrev S_ : Shape := ⟨0, ![]⟩
abbrev S6500000x1 : Shape := ⟨2, ![6500000, 1]⟩
abbrev S100000x12 : Shape := ⟨2, ![100000, 12]⟩
abbrev S6500000x12 : Shape := ⟨2, ![6500000, 12]⟩
abbrev S1x12 : Shape := ⟨2, ![1, 12]⟩
abbrev S100000x6 : Shape := ⟨2, ![100000, 6]⟩
abbrev S6500000x6 : Shape := ⟨2, ![6500000, 6]⟩
abbrev S1x6 : Shape := ⟨2, ![1, 6]⟩
abbrev S100000x3 : Shape := ⟨2, ![100000, 3]⟩
abbrev S6500000x3 : Shape := ⟨2, ![6500000, 3]⟩
abbrev S1x3 : Shape := ⟨2, ![1, 3]⟩
abbrev S100000x1 : Shape := ⟨2, ![100000, 1]⟩
abbrev S1x1 : Shape := ⟨2, ![1, 1]⟩

abbrev nBuf : Space → Nat
  | .hbm => 232
  | .vmem => 0
  | .smem => 0
  | _ => 0

abbrev hbmTy0_0 (i : Nat) : BufTy := match i % 128 with
  | 0 => ⟨S100000x128, .f32⟩
  | 1 => ⟨S2x6400000, .i32⟩
  | 2 => ⟨S6400000, .f32⟩
  | 3 => ⟨S128x12, .f32⟩
  | 4 => ⟨S12, .f32⟩
  | 5 => ⟨S12x6, .f32⟩
  | 6 => ⟨S6, .f32⟩
  | 7 => ⟨S6x3, .f32⟩
  | 8 => ⟨S3, .f32⟩
  | 9 => ⟨S3x1, .f32⟩
  | 10 => ⟨S1, .f32⟩
  | 11 => ⟨S1x6400000, .i32⟩
  | 12 => ⟨S6400000, .i32⟩
  | 13 => ⟨S1x6400000, .i32⟩
  | 14 => ⟨S6400000, .i32⟩
  | 15 => ⟨S100000, .i32⟩
  | 16 => ⟨S6500000, .i32⟩
  | 17 => ⟨S6500000, .i32⟩
  | 18 => ⟨S_, .f32⟩
  | 19 => ⟨S100000, .f32⟩
  | 20 => ⟨S6500000, .f32⟩
  | 21 => ⟨S_, .f32⟩
  | 22 => ⟨S100000, .f32⟩
  | 23 => ⟨S6500000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S_, .f32⟩
  | 30 => ⟨S100000, .f32⟩
  | 31 => ⟨S100000, .f32⟩
  | 32 => ⟨S_, .f32⟩
  | 33 => ⟨S100000, .f32⟩
  | 34 => ⟨S100000, .i1⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S6500000, .i32⟩
  | 42 => ⟨S6500000, .i1⟩
  | 43 => ⟨S_, .i32⟩
  | 44 => ⟨S6500000, .i32⟩
  | 45 => ⟨S6500000, .i32⟩
  | 46 => ⟨S6500000, .i32⟩
  | 47 => ⟨S6500000x1, .i32⟩
  | 48 => ⟨S6500000, .f32⟩
  | 49 => ⟨S6500000, .f32⟩
  | 50 => ⟨S_, .i32⟩
  | 51 => ⟨S6500000, .i32⟩
  | 52 => ⟨S6500000, .i1⟩
  | 53 => ⟨S_, .i32⟩
  | 54 => ⟨S6500000, .i32⟩
  | 55 => ⟨S6500000, .i32⟩
  | 56 => ⟨S6500000, .i32⟩
  | 57 => ⟨S6500000x1, .i32⟩
  | 58 => ⟨S6500000, .f32⟩
  | 59 => ⟨S6500000, .f32⟩
  | 60 => ⟨S100000x12, .f32⟩
  | 61 => ⟨S6500000x1, .f32⟩
  | 62 => ⟨S_, .i32⟩
  | 63 => ⟨S6500000, .i32⟩
  | 64 => ⟨S6500000, .i1⟩
  | 65 => ⟨S_, .i32⟩
  | 66 => ⟨S6500000, .i32⟩
  | 67 => ⟨S6500000, .i32⟩
  | 68 => ⟨S6500000, .i32⟩
  | 69 => ⟨S6500000x1, .i32⟩
  | 70 => ⟨S6500000x12, .f32⟩
  | 71 => ⟨S6500000x12, .f32⟩
  | 72 => ⟨S6500000x12, .f32⟩
  | 73 => ⟨S_, .f32⟩
  | 74 => ⟨S100000x12, .f32⟩
  | 75 => ⟨S6500000x1, .i32⟩
  | 76 => ⟨S100000x12, .f32⟩
  | 77 => ⟨S1x12, .f32⟩
  | 78 => ⟨S100000x12, .f32⟩
  | 79 => ⟨S100000x12, .f32⟩
  | 80 => ⟨S_, .f32⟩
  | 81 => ⟨S100000x12, .f32⟩
  | 82 => ⟨S100000x12, .f32⟩
  | 83 => ⟨S100000, .i32⟩
  | 84 => ⟨S6500000, .i32⟩
  | 85 => ⟨S6500000, .i32⟩
  | 86 => ⟨S_, .f32⟩
  | 87 => ⟨S100000, .f32⟩
  | 88 => ⟨S6500000, .f32⟩
  | 89 => ⟨S_, .f32⟩
  | 90 => ⟨S100000, .f32⟩
  | 91 => ⟨S6500000x1, .i32⟩
  | 92 => ⟨S100000, .f32⟩
  | 93 => ⟨S_, .f32⟩
  | 94 => ⟨S100000, .f32⟩
  | 95 => ⟨S100000, .i1⟩
  | 96 => ⟨S_, .f32⟩
  | 97 => ⟨S_, .f32⟩
  | 98 => ⟨S100000, .f32⟩
  | 99 => ⟨S100000, .f32⟩
  | 100 => ⟨S_, .f32⟩
  | 101 => ⟨S100000, .f32⟩
  | 102 => ⟨S100000, .i1⟩
  | 103 => ⟨S100000, .f32⟩
  | 104 => ⟨S_, .f32⟩
  | 105 => ⟨S_, .f32⟩
  | 106 => ⟨S100000, .f32⟩
  | 107 => ⟨S100000, .f32⟩
  | 108 => ⟨S_, .i32⟩
  | 109 => ⟨S6500000, .i32⟩
  | 110 => ⟨S6500000, .i1⟩
  | 111 => ⟨S_, .i32⟩
  | 112 => ⟨S6500000, .i32⟩
  | 113 => ⟨S6500000, .i32⟩
  | 114 => ⟨S6500000, .i32⟩
  | 115 => ⟨S6500000x1, .i32⟩
  | 116 => ⟨S6500000, .f32⟩
  | 117 => ⟨S6500000, .f32⟩
  | 118 => ⟨S_, .i32⟩
  | 119 => ⟨S6500000, .i32⟩
  | 120 => ⟨S6500000, .i1⟩
  | 121 => ⟨S_, .i32⟩
  | 122 => ⟨S6500000, .i32⟩
  | 123 => ⟨S6500000, .i32⟩
  | 124 => ⟨S6500000, .i32⟩
  | 125 => ⟨S6500000x1, .i32⟩
  | 126 => ⟨S6500000, .f32⟩
  | 127 => ⟨S6500000, .f32⟩
  | _ => ⟨S100000x128, .f32⟩

abbrev hbmTy0_1 (i : Nat) : BufTy := match i % 128 with
  | 0 => ⟨S100000x6, .f32⟩
  | 1 => ⟨S6500000x1, .f32⟩
  | 2 => ⟨S_, .i32⟩
  | 3 => ⟨S6500000, .i32⟩
  | 4 => ⟨S6500000, .i1⟩
  | 5 => ⟨S_, .i32⟩
  | 6 => ⟨S6500000, .i32⟩
  | 7 => ⟨S6500000, .i32⟩
  | 8 => ⟨S6500000, .i32⟩
  | 9 => ⟨S6500000x1, .i32⟩
  | 10 => ⟨S6500000x6, .f32⟩
  | 11 => ⟨S6500000x6, .f32⟩
  | 12 => ⟨S6500000x6, .f32⟩
  | 13 => ⟨S_, .f32⟩
  | 14 => ⟨S100000x6, .f32⟩
  | 15 => ⟨S6500000x1, .i32⟩
  | 16 => ⟨S100000x6, .f32⟩
  | 17 => ⟨S1x6, .f32⟩
  | 18 => ⟨S100000x6, .f32⟩
  | 19 => ⟨S100000x6, .f32⟩
  | 20 => ⟨S_, .f32⟩
  | 21 => ⟨S100000x6, .f32⟩
  | 22 => ⟨S100000x6, .f32⟩
  | 23 => ⟨S100000, .i32⟩
  | 24 => ⟨S6500000, .i32⟩
  | 25 => ⟨S6500000, .i32⟩
  | 26 => ⟨S_, .f32⟩
  | 27 => ⟨S100000, .f32⟩
  | 28 => ⟨S6500000, .f32⟩
  | 29 => ⟨S_, .f32⟩
  | 30 => ⟨S100000, .f32⟩
  | 31 => ⟨S6500000x1, .i32⟩
  | 32 => ⟨S100000, .f32⟩
  | 33 => ⟨S_, .f32⟩
  | 34 => ⟨S100000, .f32⟩
  | 35 => ⟨S100000, .i1⟩
  | 36 => ⟨S_, .f32⟩
  | 37 => ⟨S_, .f32⟩
  | 38 => ⟨S100000, .f32⟩
  | 39 => ⟨S100000, .f32⟩
  | 40 => ⟨S_, .f32⟩
  | 41 => ⟨S100000, .f32⟩
  | 42 => ⟨S100000, .i1⟩
  | 43 => ⟨S100000, .f32⟩
  | 44 => ⟨S_, .f32⟩
  | 45 => ⟨S_, .f32⟩
  | 46 => ⟨S100000, .f32⟩
  | 47 => ⟨S100000, .f32⟩
  | 48 => ⟨S_, .i32⟩
  | 49 => ⟨S6500000, .i32⟩
  | 50 => ⟨S6500000, .i1⟩
  | 51 => ⟨S_, .i32⟩
  | 52 => ⟨S6500000, .i32⟩
  | 53 => ⟨S6500000, .i32⟩
  | 54 => ⟨S6500000, .i32⟩
  | 55 => ⟨S6500000x1, .i32⟩
  | 56 => ⟨S6500000, .f32⟩
  | 57 => ⟨S6500000, .f32⟩
  | 58 => ⟨S_, .i32⟩
  | 59 => ⟨S6500000, .i32⟩
  | 60 => ⟨S6500000, .i1⟩
  | 61 => ⟨S_, .i32⟩
  | 62 => ⟨S6500000, .i32⟩
  | 63 => ⟨S6500000, .i32⟩
  | 64 => ⟨S6500000, .i32⟩
  | 65 => ⟨S6500000x1, .i32⟩
  | 66 => ⟨S6500000, .f32⟩
  | 67 => ⟨S6500000, .f32⟩
  | 68 => ⟨S100000x3, .f32⟩
  | 69 => ⟨S6500000x1, .f32⟩
  | 70 => ⟨S_, .i32⟩
  | 71 => ⟨S6500000, .i32⟩
  | 72 => ⟨S6500000, .i1⟩
  | 73 => ⟨S_, .i32⟩
  | 74 => ⟨S6500000, .i32⟩
  | 75 => ⟨S6500000, .i32⟩
  | 76 => ⟨S6500000, .i32⟩
  | 77 => ⟨S6500000x1, .i32⟩
  | 78 => ⟨S6500000x3, .f32⟩
  | 79 => ⟨S6500000x3, .f32⟩
  | 80 => ⟨S6500000x3, .f32⟩
  | 81 => ⟨S_, .f32⟩
  | 82 => ⟨S100000x3, .f32⟩
  | 83 => ⟨S6500000x1, .i32⟩
  | 84 => ⟨S100000x3, .f32⟩
  | 85 => ⟨S1x3, .f32⟩
  | 86 => ⟨S100000x3, .f32⟩
  | 87 => ⟨S100000x3, .f32⟩
  | 88 => ⟨S_, .f32⟩
  | 89 => ⟨S100000x3, .f32⟩
  | 90 => ⟨S100000x3, .f32⟩
  | 91 => ⟨S100000x1, .f32⟩
  | 92 => ⟨S1x1, .f32⟩
  | 93 => ⟨S100000x1, .f32⟩
  | 94 => ⟨S100000x1, .f32⟩
  | 95 => ⟨S100000x1, .f32⟩
  | 96 => ⟨S100000x1, .f32⟩
  | 97 => ⟨S_, .f32⟩
  | 98 => ⟨S100000x1, .f32⟩
  | 99 => ⟨S100000x1, .f32⟩
  | 100 => ⟨S_, .f32⟩
  | 101 => ⟨S100000x1, .f32⟩
  | 102 => ⟨S100000x1, .f32⟩
  | 103 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v18 : Ref sig .tc := ⟨.hbm, 39, rfl⟩
abbrev main_c : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_c_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call2_cst : Ref sig .tc := ⟨.hbm, 80, rfl⟩
abbrev main_call2_v0 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_cst_12 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_13 : Ref sig .tc := ⟨.hbm, 93, rfl⟩
abbrev main_v61 : Ref sig .tc := ⟨.hbm, 94, rfl⟩
abbrev main_v62 : Ref sig .tc := ⟨.hbm, 95, rfl⟩
abbrev main_cst_14 : Ref sig .tc := ⟨.hbm, 96, rfl⟩
abbrev main_call3_v0 : Ref sig .tc := ⟨.hbm, 97, rfl⟩
abbrev main_call3_v1 : Ref sig .tc := ⟨.hbm, 98, rfl⟩
abbrev main_v63 : Ref sig .tc := ⟨.hbm, 99, rfl⟩
abbrev main_cst_15 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_16 : Ref sig .tc := ⟨.hbm, 104, rfl⟩
abbrev main_call4_v0 : Ref sig .tc := ⟨.hbm, 105, rfl⟩
abbrev main_call4_v1 : Ref sig .tc := ⟨.hbm, 106, rfl⟩
abbrev main_v67 : Ref sig .tc := ⟨.hbm, 107, rfl⟩
abbrev main_c_17 : Ref sig .tc := ⟨.hbm, 108, rfl⟩
abbrev main_v68 : Ref sig .tc := ⟨.hbm, 109, rfl⟩
abbrev main_v69 : Ref sig .tc := ⟨.hbm, 110, rfl⟩
abbrev main_c_18 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_c_19 : Ref sig .tc := ⟨.hbm, 118, rfl⟩
abbrev main_v76 : Ref sig .tc := ⟨.hbm, 119, rfl⟩
abbrev main_v77 : Ref sig .tc := ⟨.hbm, 120, rfl⟩
abbrev main_c_20 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_c_21 : Ref sig .tc := ⟨.hbm, 130, rfl⟩
abbrev main_v86 : Ref sig .tc := ⟨.hbm, 131, rfl⟩
abbrev main_v87 : Ref sig .tc := ⟨.hbm, 132, rfl⟩
abbrev main_c_22 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_23 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_call5_cst : Ref sig .tc := ⟨.hbm, 148, rfl⟩
abbrev main_call5_v0 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_24 : Ref sig .tc := ⟨.hbm, 154, rfl⟩
abbrev main_v105 : Ref sig .tc := ⟨.hbm, 155, rfl⟩
abbrev main_v106 : Ref sig .tc := ⟨.hbm, 156, rfl⟩
abbrev main_cst_25 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_cst_26 : Ref sig .tc := ⟨.hbm, 161, rfl⟩
abbrev main_v110 : Ref sig .tc := ⟨.hbm, 162, rfl⟩
abbrev main_v111 : Ref sig .tc := ⟨.hbm, 163, rfl⟩
abbrev main_cst_27 : Ref sig .tc := ⟨.hbm, 164, rfl⟩
abbrev main_call6_v0 : Ref sig .tc := ⟨.hbm, 165, rfl⟩
abbrev main_call6_v1 : Ref sig .tc := ⟨.hbm, 166, rfl⟩
abbrev main_v112 : Ref sig .tc := ⟨.hbm, 167, rfl⟩
abbrev main_cst_28 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_cst_29 : Ref sig .tc := ⟨.hbm, 172, rfl⟩
abbrev main_call7_v0 : Ref sig .tc := ⟨.hbm, 173, rfl⟩
abbrev main_call7_v1 : Ref sig .tc := ⟨.hbm, 174, rfl⟩
abbrev main_v116 : Ref sig .tc := ⟨.hbm, 175, rfl⟩
abbrev main_c_30 : Ref sig .tc := ⟨.hbm, 176, rfl⟩
abbrev main_v117 : Ref sig .tc := ⟨.hbm, 177, rfl⟩
abbrev main_v118 : Ref sig .tc := ⟨.hbm, 178, rfl⟩
abbrev main_c_31 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_c_32 : Ref sig .tc := ⟨.hbm, 186, rfl⟩
abbrev main_v125 : Ref sig .tc := ⟨.hbm, 187, rfl⟩
abbrev main_v126 : Ref sig .tc := ⟨.hbm, 188, rfl⟩
abbrev main_c_33 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_c_34 : Ref sig .tc := ⟨.hbm, 198, rfl⟩
abbrev main_v135 : Ref sig .tc := ⟨.hbm, 199, rfl⟩
abbrev main_v136 : Ref sig .tc := ⟨.hbm, 200, rfl⟩
abbrev main_c_35 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_cst_36 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_call8_cst : Ref sig .tc := ⟨.hbm, 216, rfl⟩
abbrev main_call8_v0 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_cst_37 : Ref sig .tc := ⟨.hbm, 225, rfl⟩
abbrev main_v157 : Ref sig .tc := ⟨.hbm, 226, rfl⟩
abbrev main_v158 : Ref sig .tc := ⟨.hbm, 227, rfl⟩
abbrev main_cst_38 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S100000_S6500000_d0 : Shape.Concatenates [S6400000, S100000] S6500000 0
  bcast_S_S100000 : S_.BroadcastsInDim S100000 (![] : Fin 0 → Fin S100000.rank)
  bcast_S6500000_S6500000x1_0 : S6500000.BroadcastsInDim S6500000x1 (![0] : Fin 1 → Fin S6500000x1.rank)
  bcast_S_S6500000 : S_.BroadcastsInDim S6500000 (![] : Fin 0 → Fin S6500000.rank)
  bcast_S6500000x1_S6500000x12_0_1 : S6500000x1.BroadcastsInDim S6500000x12 (![0, 1] : Fin 2 → Fin S6500000x12.rank)
  bcast_S_S100000x12 : S_.BroadcastsInDim S100000x12 (![] : Fin 0 → Fin S100000x12.rank)
  bcast_S12_S1x12_1 : S12.BroadcastsInDim S1x12 (![1] : Fin 1 → Fin S1x12.rank)
  bcast_S1x12_S100000x12_0_1 : S1x12.BroadcastsInDim S100000x12 (![0, 1] : Fin 2 → Fin S100000x12.rank)
  bcast_S6500000x1_S6500000x6_0_1 : S6500000x1.BroadcastsInDim S6500000x6 (![0, 1] : Fin 2 → Fin S6500000x6.rank)
  bcast_S_S100000x6 : S_.BroadcastsInDim S100000x6 (![] : Fin 0 → Fin S100000x6.rank)
  bcast_S6_S1x6_1 : S6.BroadcastsInDim S1x6 (![1] : Fin 1 → Fin S1x6.rank)
  bcast_S1x6_S100000x6_0_1 : S1x6.BroadcastsInDim S100000x6 (![0, 1] : Fin 2 → Fin S100000x6.rank)
  bcast_S6500000x1_S6500000x3_0_1 : S6500000x1.BroadcastsInDim S6500000x3 (![0, 1] : Fin 2 → Fin S6500000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S100000x128_S128x12_S100000x12_1_0_0_1_n_n_wf : DotDims.WF S100000x128 S128x12 S100000x12 [1] [0] [0] [1] [] []
  gather_S100000x12_S6500000x1_S6500000x12_1_0_n_n_0_1_112_wf : GatherDims.WF S100000x12 S6500000x1 S6500000x12 [1] [0] [] [0] [] 1 ![1, 12]
  scatter_S100000x12_S6500000x1_S6500000x12_1_0_0_1_wf : ScatterDims.WF S100000x12 S6500000x1 S6500000x12 [1] [0] [0] 1
  dot_S100000x12_S12x6_S100000x6_1_0_0_1_n_n_wf : DotDims.WF S100000x12 S12x6 S100000x6 [1] [0] [0] [1] [] []
  gather_S100000x6_S6500000x1_S6500000x6_1_0_n_n_0_1_16_wf : GatherDims.WF S100000x6 S6500000x1 S6500000x6 [1] [0] [] [0] [] 1 ![1, 6]
  scatter_S100000x6_S6500000x1_S6500000x6_1_0_0_1_wf : ScatterDims.WF S100000x6 S6500000x1 S6500000x6 [1] [0] [0] 1
  dot_S100000x6_S6x3_S100000x3_1_0_0_1_n_n_wf : DotDims.WF S100000x6 S6x3 S100000x3 [1] [0] [0] [1] [] []
  gather_S100000x3_S6500000x1_S6500000x3_1_0_n_n_0_1_13_wf : GatherDims.WF S100000x3 S6500000x1 S6500000x3 [1] [0] [] [0] [] 1 ![1, 3]
  scatter_S100000x3_S6500000x1_S6500000x3_1_0_0_1_wf : ScatterDims.WF S100000x3 S6500000x1 S6500000x3 [1] [0] [0] 1
  dot_S100000x3_S3x1_S100000x1_1_0_0_1_n_n_wf : DotDims.WF S100000x3 S3x1 S100000x1 [1] [0] [0] [1] [] []

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S100000x128_S128x12_S100000x12_1_0_0_1_n_n : DotDims S100000x128 S128x12 S100000x12 where
  lhsContracting := [1]
  rhsContracting := [0]
  lhsNonContracting := [0]
  rhsNonContracting := [1]
  lhsBatch := []
  rhsBatch := []
  wf := dot_S100000x128_S128x12_S100000x12_1_0_0_1_n_n_wf
def gather_S100000x12_S6500000x1_S6500000x12_1_0_n_n_0_1_112 : GatherDims S100000x12 S6500000x1 S6500000x12 where
  offsetDims := [1]
  collapsedSliceDims := [0]
  operandBatchingDims := []
  startIndicesBatchingDims := []
  startIndexMap := [0]
  indexVectorDim := 1
  sliceSizes := ![1, 12]
  wf := gather_S100000x12_S6500000x1_S6500000x12_1_0_n_n_0_1_112_wf
def scatter_S100000x12_S6500000x1_S6500000x12_1_0_0_1 : ScatterDims S100000x12 S6500000x1 S6500000x12 where
  updateWindowDims := [1]
  insertedWindowDims := [0]
  scatterDimsToOperandDims := [0]
  indexVectorDim := 1
  wf := scatter_S100000x12_S6500000x1_S6500000x12_1_0_0_1_wf
def dot_S100000x12_S12x6_S100000x6_1_0_0_1_n_n : DotDims S100000x12 S12x6 S100000x6 where
  lhsContracting := [1]
  rhsContracting := [0]
  lhsNonContracting := [0]
  rhsNonContracting := [1]
  lhsBatch := []
  rhsBatch := []
  wf := dot_S100000x12_S12x6_S100000x6_1_0_0_1_n_n_wf
def gather_S100000x6_S6500000x1_S6500000x6_1_0_n_n_0_1_16 : GatherDims S100000x6 S6500000x1 S6500000x6 where
  offsetDims := [1]
  collapsedSliceDims := [0]
  operandBatchingDims := []
  startIndicesBatchingDims := []
  startIndexMap := [0]
  indexVectorDim := 1
  sliceSizes := ![1, 6]
  wf := gather_S100000x6_S6500000x1_S6500000x6_1_0_n_n_0_1_16_wf
def scatter_S100000x6_S6500000x1_S6500000x6_1_0_0_1 : ScatterDims S100000x6 S6500000x1 S6500000x6 where
  updateWindowDims := [1]
  insertedWindowDims := [0]
  scatterDimsToOperandDims := [0]
  indexVectorDim := 1
  wf := scatter_S100000x6_S6500000x1_S6500000x6_1_0_0_1_wf
def dot_S100000x6_S6x3_S100000x3_1_0_0_1_n_n : DotDims S100000x6 S6x3 S100000x3 where
  lhsContracting := [1]
  rhsContracting := [0]
  lhsNonContracting := [0]
  rhsNonContracting := [1]
  lhsBatch := []
  rhsBatch := []
  wf := dot_S100000x6_S6x3_S100000x3_1_0_0_1_n_n_wf
def gather_S100000x3_S6500000x1_S6500000x3_1_0_n_n_0_1_13 : GatherDims S100000x3 S6500000x1 S6500000x3 where
  offsetDims := [1]
  collapsedSliceDims := [0]
  operandBatchingDims := []
  startIndicesBatchingDims := []
  startIndexMap := [0]
  indexVectorDim := 1
  sliceSizes := ![1, 3]
  wf := gather_S100000x3_S6500000x1_S6500000x3_1_0_n_n_0_1_13_wf
def scatter_S100000x3_S6500000x1_S6500000x3_1_0_0_1 : ScatterDims S100000x3 S6500000x1 S6500000x3 where
  updateWindowDims := [1]
  insertedWindowDims := [0]
  scatterDimsToOperandDims := [0]
  indexVectorDim := 1
  wf := scatter_S100000x3_S6500000x1_S6500000x3_1_0_0_1_wf
def dot_S100000x3_S3x1_S100000x1_1_0_0_1_n_n : DotDims S100000x3 S3x1 S100000x1 where
  lhsContracting := [1]
  rhsContracting := [0]
  lhsNonContracting := [0]
  rhsNonContracting := [1]
  lhsBatch := []
  rhsBatch := []
  wf := dot_S100000x3_S3x1_S100000x1_1_0_0_1_n_n_wf

class Facts : Prop extends Facts₀ where

variable [Facts]
-- ==== Proof.KernelRun.lean ====
/-
  The kernel program's run with its result kept.  The program is five pipelined regions among stretches of host
  operations; its generated frame certificate runs the segments one after the other and states, of the final state,
  only that the arguments are as launched.  The same run leaves EVERY unscoped buffer at the contents of the last
  segment boundary, so the result buffer can be read there as well: every weakly fair execution terminates, nothing
  faults, the result buffer holds the last boundary's contents at it, and the arguments are unchanged.
-/
import proofs.«144158_j2422361555109_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result buffer ends at the last
    segment boundary's contents and the arguments end as launched. -/
theorem run : θ_run defs (onTc (τ := τ) (main (F := F))) ⟨m, fun _ => 0, ρ⟩ (fun r => ∀ c : Dev nD,
      r.2.mem ((c.tc : Thread nD τ).loc main_v83) = W15 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v83 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c)⟩)

end Cert.KernelIdeal.Result

end
-- ==== Proof.ChainArgs.lean ====
/-
  Buffers the host operations and the regions leave alone.  An argument array is written by no host operation and is
  the output of no region, so at every segment boundary it still holds what it held at launch.
-/
import proofs.«144158_j2422361555109_2_alg».proof.Proof.Gen.KernelIdeal.Frame
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem

/-- No operation of a literal list of host operations writes a given buffer: each operation's one written buffer is a
    different reference. -/
macro "nowrite " ops:ident : tactic => `(tactic| exact List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

variable {F : FTy → Type} [FloatOps F]
variable (m : (ℓ : Loc nD τ sig) → Buf (Elt F) ℓ) (ρ : Dev nD → PrngReg) (c : Dev nD)

/-- `main_arg0` still holds its launch contents at boundary 5. -/
theorem W5_arg0 : W5 m ρ c (Proc.devRef .tc main_arg0) = m ((c : Thread nD τ).loc main_arg0) :=
  ((StableHlo.after_of_forall_not_mem (b := (Proc.devRef .tc main_arg0)) hostOps0_4 (W4 m ρ c) (by nowrite hostOps0_4)).trans ((StableHlo.after_of_forall_not_mem (b := (Proc.devRef .tc main_arg0)) hostOps0_3 (W3 m ρ c) (by nowrite hostOps0_3)).trans ((StableHlo.after_of_forall_not_mem (b := (Proc.devRef .tc main_arg0)) hostOps0_2 (W2 m ρ c) (by nowrite hostOps0_2)).trans ((StableHlo.after_of_forall_not_mem (b := (Proc.devRef .tc main_arg0)) hostOps0_1 (W1 m ρ c) (by nowrite hostOps0_1)).trans ((StableHlo.after_of_forall_not_mem (b := (Proc.devRef .tc main_arg0)) hostOps0 (W0 m ρ c) (by nowrite hostOps0)).trans rfl)))))

/-- `main_arg3` still holds its launch contents at boundary 5. -/
theorem W5_arg3 : W5 m ρ c (Proc.devRef .tc main_arg3) = m ((c : Thread nD τ).loc main_arg3) :=
  ((StableHlo.after_of_forall_not_mem (b := (Proc.devRef .tc main_arg3)) hostOps0_4 (W4 m ρ c) (by nowrite hostOps0_4)).trans ((StableHlo.after_of_forall_not_mem (b := (Proc.devRef .tc main_arg3)) hostOps0_3 (W3 m ρ c) (by nowrite hostOps0_3)).trans ((StableHlo.after_of_forall_not_mem (b := (Proc.devRef .tc main_arg3)) hostOps0_2 (W2 m ρ c) (by nowrite hostOps0_2)).trans ((StableHlo.after_of_forall_not_mem (b := (Proc.devRef .tc main_arg3)) hostOps0_1 (W1 m ρ c) (by nowrite hostOps0_1)).trans ((StableHlo.after_of_forall_not_mem (b := (Proc.devRef .tc main_arg3)) hostOps0 (W0 m ρ c) (by nowrite hostOps0)).trans rfl)))))

/-- `main_arg4` still holds its launch contents at boundary 6. -/
theorem W6_arg4 : W6 m ρ c (Proc.devRef .tc main_arg4) = m ((c : Thread nD τ).loc main_arg4) :=
  ((W6_of_ne m ρ c main_arg4 (by decide)).trans ((StableHlo.after_of_forall_not_mem (b := (Proc.devRef .tc main_arg4)) hostOps0_4 (W4 m ρ c) (by nowrite hostOps0_4)).trans ((StableHlo.after_of_forall_not_mem (b := (Proc.devRef .tc main_arg4)) hostOps0_3 (W3 m ρ c) (by nowrite hostOps0_3)).trans ((StableHlo.after_of_forall_not_mem (b := (Proc.devRef .tc main_arg4)) hostOps0_2 (W2 m ρ c) (by nowrite hostOps0_2)).trans ((StableHlo.after_of_forall_not_mem (b := (Proc.devRef .tc main_arg4)) hostOps0_1 (W1 m ρ c) (by nowrite hostOps0_1)).trans ((StableHlo.after_of_forall_not_mem (b := (Proc.devRef .tc main_arg4)) hostOps0 (W0 m ρ c) (by nowrite hostOps0)).trans rfl))))))

/-- `main_arg5` still holds its launch contents at boundary 7. -/
theorem W7_arg5 : W7 m ρ c (Proc.devRef .tc main_arg5) = m ((c : Thread nD τ).loc main_arg5) :=
  ((StableHlo.after_of_forall_not_mem (b := (Proc.devRef .tc main_arg5)) hostOps1 (W6 m ρ c) (by nowrite hostOps1)).trans ((W6_of_ne m ρ c main_arg5 (by decide)).trans ((StableHlo.after_of_forall_not_mem (b := (Proc.devRef .tc main_arg5)) hostOps0_4 (W4 m ρ c) (by nowrite hostOps0_4)).trans ((StableHlo.after_of_forall_not_mem (b := (Proc.devRef .tc main_arg5)) hostOps0_3 (W3 m ρ c) (by nowrite hostOps0_3)).trans ((StableHlo.after_of_forall_not_mem (b := (Proc.devRef .tc main_arg5)) hostOps0_2 (W2 m ρ c) (by nowrite hostOps0_2)).trans ((StableHlo.after_of_forall_not_mem (b := (Proc.devRef .tc main_arg5)) hostOps0_1 (W1 m ρ c) (by nowrite hostOps0_1)).trans ((StableHlo.after_of_forall_not_mem (b := (Proc.devRef .tc main_arg5)) hostOps0 (W0 m ρ c) (by nowrite hostOps0)).trans rfl)))))))

/-- `main_arg6` still holds its launch contents at boundary 8. -/
theorem W8_arg6 : W8 m ρ c (Proc.devRef .tc main_arg6) = m ((c : Thread nD τ).loc main_arg6) :=
  ((W8_of_ne m ρ c main_arg6 (by decide)).trans ((StableHlo.after_of_forall_not_mem (b := (Proc.devRef .tc main_arg6)) hostOps1 (W6 m ρ c) (by nowrite hostOps1)).trans ((W6_of_ne m ρ c main_arg6 (by decide)).trans ((StableHlo.after_of_forall_not_mem (b := (Proc.devRef .tc main_arg6)) hostOps0_4 (W4 m ρ c) (by nowrite hostOps0_4)).trans ((StableHlo.after_of_forall_not_mem (b := (Proc.devRef .tc main_arg6)) hostOps0_3 (W3 m ρ c) (by nowrite hostOps0_3)).trans ((StableHlo.after_of_forall_not_mem (b := (Proc.devRef .tc main_arg6)) hostOps0_2 (W2 m ρ c) (by nowrite hostOps0_2)).trans ((StableHlo.after_of_forall_not_mem (b := (Proc.devRef .tc main_arg6)) hostOps0_1 (W1 m ρ c) (by nowrite hostOps0_1)).trans ((StableHlo.after_of_forall_not_mem (b := (Proc.devRef .tc main_arg6)) hostOps0 (W0 m ρ c) (by nowrite hostOps0)).trans rfl))))))))

/-- `main_arg7` still holds its launch contents at boundary 9. -/
theorem W9_arg7 : W9 m ρ c (Proc.devRef .tc main_arg7) = m ((c : Thread nD τ).loc main_arg7) :=
  ((StableHlo.after_of_forall_not_mem (b := (Proc.devRef .tc main_arg7)) hostOps2 (W8 m ρ c) (by nowrite hostOps2)).trans ((W8_of_ne m ρ c main_arg7 (by decide)).trans ((StableHlo.after_of_forall_not_mem (b := (Proc.devRef .tc main_arg7)) hostOps1 (W6 m ρ c) (by nowrite hostOps1)).trans ((W6_of_ne m ρ c main_arg7 (by decide)).trans ((StableHlo.after_of_forall_not_mem (b := (Proc.devRef .tc main_arg7)) hostOps0_4 (W4 m ρ c) (by nowrite hostOps0_4)).trans ((StableHlo.after_of_forall_not_mem (b := (Proc.devRef .tc main_arg7)) hostOps0_3 (W3 m ρ c) (by nowrite hostOps0_3)).trans ((StableHlo.after_of_forall_not_mem (b := (Proc.devRef .tc main_arg7)) hostOps0_2 (W2 m ρ c) (by nowrite hostOps0_2)).trans ((StableHlo.after_of_forall_not_mem (b := (Proc.devRef .tc main_arg7)) hostOps0_1 (W1 m ρ c) (by nowrite hostOps0_1)).trans ((StableHlo.after_of_forall_not_mem (b := (Proc.devRef .tc main_arg7)) hostOps0 (W0 m ρ c) (by nowrite hostOps0)).trans rfl)))))))))

/-- `main_arg8` still holds its launch contents at boundary 10. -/
theorem W10_arg8 : W10 m ρ c (Proc.devRef .tc main_arg8) = m ((c : Thread nD τ).loc main_arg8) :=
  ((W10_of_ne m ρ c main_arg8 (by decide)).trans ((StableHlo.after_of_forall_not_mem (b := (Proc.devRef .tc main_arg8)) hostOps2 (W8 m ρ c) (by nowrite hostOps2)).trans ((W8_of_ne m ρ c main_arg8 (by decide)).trans ((StableHlo.after_of_forall_not_mem (b := (Proc.devRef .tc main_arg8)) hostOps1 (W6 m ρ c) (by nowrite hostOps1)).trans ((W6_of_ne m ρ c main_arg8 (by decide)).trans ((StableHlo.after_of_forall_not_mem (b := (Proc.devRef .tc main_arg8)) hostOps0_4 (W4 m ρ c) (by nowrite hostOps0_4)).trans ((StableHlo.after_of_forall_not_mem (b := (Proc.devRef .tc main_arg8)) hostOps0_3 (W3 m ρ c) (by nowrite hostOps0_3)).trans ((StableHlo.after_of_forall_not_mem (b := (Proc.devRef .tc main_arg8)) hostOps0_2 (W2 m ρ c) (by nowrite hostOps0_2)).trans ((StableHlo.after_of_forall_not_mem (b := (Proc.devRef .tc main_arg8)) hostOps0_1 (W1 m ρ c) (by nowrite hostOps0_1)).trans ((StableHlo.after_of_forall_not_mem (b := (Proc.devRef .tc main_arg8)) hostOps0 (W0 m ρ c) (by nowrite hostOps0)).trans rfl))))))))))

/-- `main_arg9` still holds its launch contents at boundary 11. -/
theorem W11_arg9 : W11 m ρ c (Proc.devRef .tc main_arg9) = m ((c : Thread nD τ).loc main_arg9) :=
  ((StableHlo.after_of_forall_not_mem (b := (Proc.devRef .tc main_arg9)) hostOps3 (W10 m ρ c) (by nowrite hostOps3)).trans ((W10_of_ne m ρ c main_arg9 (by decide)).trans ((StableHlo.after_of_forall_not_mem (b := (Proc.devRef .tc main_arg9)) hostOps2 (W8 m ρ c) (by nowrite hostOps2)).trans ((W8_of_ne m ρ c main_arg9 (by decide)).trans ((StableHlo.after_of_forall_not_mem (b := (Proc.devRef .tc main_arg9)) hostOps1 (W6 m ρ c) (by nowrite hostOps1)).trans ((W6_of_ne m ρ c main_arg9 (by decide)).trans ((StableHlo.after_of_forall_not_mem (b := (Proc.devRef .tc main_arg9)) hostOps0_4 (W4 m ρ c) (by nowrite hostOps0_4)).trans ((StableHlo.after_of_forall_not_mem (b := (Proc.devRef .tc main_arg9)) hostOps0_3 (W3 m ρ c) (by nowrite hostOps0_3)).trans ((StableHlo.after_of_forall_not_mem (b := (Proc.devRef .tc main_arg9)) hostOps0_2 (W2 m ρ c) (by nowrite hostOps0_2)).trans ((StableHlo.after_of_forall_not_mem (b := (Proc.devRef .tc main_arg9)) hostOps0_1 (W1 m ρ c) (by nowrite hostOps0_1)).trans ((StableHlo.after_of_forall_not_mem (b := (Proc.devRef .tc main_arg9)) hostOps0 (W0 m ρ c) (by nowrite hostOps0)).trans rfl)))))))))))

/-- `main_arg10` still holds its launch contents at boundary 12. -/
theorem W12_arg10 : W12 m ρ c (Proc.devRef .tc main_arg10) = m ((c : Thread nD τ).loc main_arg10) :=
  ((W12_of_ne m ρ c main_arg10 (by decide)).trans ((StableHlo.after_of_forall_not_mem (b := (Proc.devRef .tc main_arg10)) hostOps3 (W10 m ρ c) (by nowrite hostOps3)).trans ((W10_of_ne m ρ c main_arg10 (by decide)).trans ((StableHlo.after_of_forall_not_mem (b := (Proc.devRef .tc main_arg10)) hostOps2 (W8 m ρ c) (by nowrite hostOps2)).trans ((W8_of_ne m ρ c main_arg10 (by decide)).trans ((StableHlo.after_of_forall_not_mem (b := (Proc.devRef .tc main_arg10)) hostOps1 (W6 m ρ c) (by nowrite hostOps1)).trans ((W6_of_ne m ρ c main_arg10 (by decide)).trans ((StableHlo.after_of_forall_not_mem (b := (Proc.devRef .tc main_arg10)) hostOps0_4 (W4 m ρ c) (by nowrite hostOps0_4)).trans ((StableHlo.after_of_forall_not_mem (b := (Proc.devRef .tc main_arg10)) hostOps0_3 (W3 m ρ c) (by nowrite hostOps0_3)).trans ((StableHlo.after_of_forall_not_mem (b := (Proc.devRef .tc main_arg10)) hostOps0_2 (W2 m ρ c) (by nowrite hostOps0_2)).trans ((StableHlo.after_of_forall_not_mem (b := (Proc.devRef .tc main_arg10)) hostOps0_1 (W1 m ρ c) (by nowrite hostOps0_1)).trans ((StableHlo.after_of_forall_not_mem (b := (Proc.devRef .tc main_arg10)) hostOps0 (W0 m ρ c) (by nowrite hostOps0)).trans rfl))))))))))))

end Cert.KernelIdeal.Chain

end
-- ==== Proof.LibTRefCast.lean ====
/-
  Typed references' transports. A host operation written over typed references moves a value to its buffer's type
  on the way in (`toBuf`) and back on the way out (`ofBuf`); both are casts along the reference's type equation, so
  there-and-back is the identity for ANY typed reference, and at a literal reference whose buffer type is the value's
  type each transport alone is the identity (`rfl`). Rewriting with these before comparing a run's composed term with
  a plain term keeps the comparison from unifying through the casts (on long host programs with inlined calls, at
  large extents, that unification does not finish).
-/
import Idealize.ShloMosaic.Lib.StableHlo

namespace Idealize.ShloMosaic.StableHlo.TRef

open Idealize.ShloMosaic

/-- A typed reference's transport of contents to its buffer's type and back is the identity. -/
theorem ofBuf_toBuf_id {sig : RefSig} {Val : EltTy → Type} {T : BufTy} (x : TRef sig T) (v : T.Contents Val) :
    x.ofBuf (x.toBuf v) = v := by
  unfold TRef.ofBuf TRef.toBuf
  simp only [cast_cast, cast_eq]

/-- And the other way round. -/
theorem toBuf_ofBuf_id {sig : RefSig} {Val : EltTy → Type} {T : BufTy} (x : TRef sig T) (v : x.ref.ty.Contents Val) :
    x.toBuf (x.ofBuf v) = v := by
  unfold TRef.ofBuf TRef.toBuf
  simp only [cast_cast, cast_eq]

end Idealize.ShloMosaic.StableHlo.TRef
-- ==== Proof.ChainNorm.lean ====
/-
  The graph normalisation and the two self-looped index vectors, computed once by the host operations before the first
  region, are the reference's: the same operations of the edge list and the edge weights, read one stretch of host
  operations at a time.  The first stretch builds the index vectors, the self-looped weights, the weighted in-degrees
  and their comparison with zero; the next replaces a non-positive degree by one; the next takes the inverse square root
  and compares the degree with zero again; the next keeps the inverse square root where the degree is positive and zero
  elsewhere; the last gathers that factor at the source and at the target of every edge and multiplies both with the
  weight.  No later host operation and no region writes the normalisation or the index vectors, so every later
  aggregation reads the same three arrays.
-/
import proofs.«144158_j2422361555109_2_alg».proof.Proof.Gen.KernelIdeal.Frame
import proofs.«144158_j2422361555109_2_alg».proof.Proof.Gen.ReferenceIdeal.Read
import proofs.«144158_j2422361555109_2_alg».proof.Proof.ChainArgs
import proofs.«144158_j2422361555109_2_alg».proof.Proof.LibTRefCast
import Idealize.ShloMosaic.Lib.StableHlo.Run

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.StableHlo

/-! At a literal reference whose buffer type is the value's type, a typed reference's transport is the identity. -/
theorem toBuf_v14 (v : (⟨S100000, .f32⟩ : BufTy).Contents (Elt Ideal)) :
    (TRef.of (sig := sig) (T := ⟨S100000, .f32⟩) main_v14).toBuf v = v := rfl
theorem ofBuf_v13 (v : (⟨S100000, .i1⟩ : BufTy).Contents (Elt Ideal)) :
    (TRef.of (sig := sig) (T := ⟨S100000, .i1⟩) main_v13).ofBuf v = v := rfl
theorem ofBuf_v11 (v : (⟨S100000, .f32⟩ : BufTy).Contents (Elt Ideal)) :
    (TRef.of (sig := sig) (T := ⟨S100000, .f32⟩) main_v11).ofBuf v = v := rfl
theorem ofBuf_cst_2 (v : (⟨S_, .f32⟩ : BufTy).Contents (Elt Ideal)) :
    (TRef.of (sig := sig) (T := ⟨S_, .f32⟩) main_cst_2).ofBuf v = v := rfl
theorem toBuf_v18 (v : (⟨S100000, .f32⟩ : BufTy).Contents (Elt Ideal)) :
    (TRef.of (sig := sig) (T := ⟨S100000, .f32⟩) main_v18).toBuf v = v := rfl
theorem ofBuf_v16 (v : (⟨S100000, .i1⟩ : BufTy).Contents (Elt Ideal)) :
    (TRef.of (sig := sig) (T := ⟨S100000, .i1⟩) main_v16).ofBuf v = v := rfl
theorem ofBuf_v17 (v : (⟨S100000, .f32⟩ : BufTy).Contents (Elt Ideal)) :
    (TRef.of (sig := sig) (T := ⟨S100000, .f32⟩) main_v17).ofBuf v = v := rfl
theorem ofBuf_cst_4 (v : (⟨S_, .f32⟩ : BufTy).Contents (Elt Ideal)) :
    (TRef.of (sig := sig) (T := ⟨S_, .f32⟩) main_cst_4).ofBuf v = v := rfl

variable (m : (ℓ : Loc nD τ sig) → Buf (Elt Ideal) ℓ) (ρ : Dev nD → PrngReg) (c : Dev nD)

/-- After the first stretch: the source indices with the self loops appended. -/
theorem W1_v5 : W1 m ρ c (Proc.devRef .tc main_v5) = val_main_v5 (F := Ideal) (m ((c : Thread nD τ).loc main_arg1)) := by
  show after hostOps0 (W0 m ρ c) (Proc.devRef .tc main_v5) = _
  dsimp only [hostOps0]
  after_results_simp
  rfl

/-- After the first stretch: the target indices with the self loops appended. -/
theorem W1_v6 : W1 m ρ c (Proc.devRef .tc main_v6) = val_main_v6 (F := Ideal) (m ((c : Thread nD τ).loc main_arg1)) := by
  show after hostOps0 (W0 m ρ c) (Proc.devRef .tc main_v6) = _
  dsimp only [hostOps0]
  after_results_simp
  rfl

/-- After the first stretch: the edge weights with a one appended for every self loop. -/
theorem W1_v8 : W1 m ρ c (Proc.devRef .tc main_v8) = val_main_v8 (F := Ideal) (m ((c : Thread nD τ).loc main_arg2)) := by
  show after hostOps0 (W0 m ρ c) (Proc.devRef .tc main_v8) = _
  dsimp only [hostOps0]
  after_results_simp
  rfl

/-- After the first stretch: the weighted in-degree of every node. -/
theorem W1_v11 : W1 m ρ c (Proc.devRef .tc main_v11) = val_main_v11 (F := Ideal) (m ((c : Thread nD τ).loc main_arg1)) (m ((c : Thread nD τ).loc main_arg2)) := by
  show after hostOps0 (W0 m ρ c) (Proc.devRef .tc main_v11) = _
  dsimp only [hostOps0]
  after_results_simp
  rfl

/-- After the first stretch: which degrees are positive. -/
theorem W1_v13 : W1 m ρ c (Proc.devRef .tc main_v13) = val_main_v13 (F := Ideal) (m ((c : Thread nD τ).loc main_arg1)) (m ((c : Thread nD τ).loc main_arg2)) := by
  show after hostOps0 (W0 m ρ c) (Proc.devRef .tc main_v13) = _
  dsimp only [hostOps0]
  after_results_simp
  rfl

/-- After the first stretch: the constant one. -/
theorem W1_cst_2 : W1 m ρ c (Proc.devRef .tc main_cst_2) = val_main_cst_2 (F := Ideal) := by
  show after hostOps0 (W0 m ρ c) (Proc.devRef .tc main_cst_2) = _
  dsimp only [hostOps0]
  after_results_simp
  rfl

/-- The degree where it is positive, one elsewhere. -/
theorem W2_v14 : W2 m ρ c (Proc.devRef .tc main_v14) = val_main_v14 (F := Ideal) (m ((c : Thread nD τ).loc main_arg1)) (m ((c : Thread nD τ).loc main_arg2)) := by
  have h0 := W1_v13 m ρ c
  have h1 := W1_v11 m ρ c
  have h2 := W1_cst_2 m ρ c
  show after hostOps0_1 (W1 m ρ c) (Proc.devRef .tc main_v14) = _
  generalize W1 m ρ c = V at h0 h1 h2 ⊢
  dsimp only [hostOps0_1]
  after_results_simp
  rw [h0, h1, h2]
  simp only [TRef.ofBuf_toBuf_id]
  rw [toBuf_v14, ofBuf_v13, ofBuf_v11, ofBuf_cst_2]
  rfl

theorem W2_v5 : W2 m ρ c (Proc.devRef .tc main_v5) = val_main_v5 (F := Ideal) (m ((c : Thread nD τ).loc main_arg1)) :=
  (StableHlo.after_of_forall_not_mem (b := (Proc.devRef .tc main_v5)) hostOps0_1 (W1 m ρ c) (by nowrite hostOps0_1)).trans (W1_v5 m ρ c)

theorem W2_v6 : W2 m ρ c (Proc.devRef .tc main_v6) = val_main_v6 (F := Ideal) (m ((c : Thread nD τ).loc main_arg1)) :=
  (StableHlo.after_of_forall_not_mem (b := (Proc.devRef .tc main_v6)) hostOps0_1 (W1 m ρ c) (by nowrite hostOps0_1)).trans (W1_v6 m ρ c)

theorem W2_v8 : W2 m ρ c (Proc.devRef .tc main_v8) = val_main_v8 (F := Ideal) (m ((c : Thread nD τ).loc main_arg2)) :=
  (StableHlo.after_of_forall_not_mem (b := (Proc.devRef .tc main_v8)) hostOps0_1 (W1 m ρ c) (by nowrite hostOps0_1)).trans (W1_v8 m ρ c)

theorem W2_v11 : W2 m ρ c (Proc.devRef .tc main_v11) = val_main_v11 (F := Ideal) (m ((c : Thread nD τ).loc main_arg1)) (m ((c : Thread nD τ).loc main_arg2)) :=
  (StableHlo.after_of_forall_not_mem (b := (Proc.devRef .tc main_v11)) hostOps0_1 (W1 m ρ c) (by nowrite hostOps0_1)).trans (W1_v11 m ρ c)

/-- Which degrees are positive, computed again. -/
theorem W3_v16 : W3 m ρ c (Proc.devRef .tc main_v16) = val_main_v16 (F := Ideal) (m ((c : Thread nD τ).loc main_arg1)) (m ((c : Thread nD τ).loc main_arg2)) := by
  have h0 := W2_v11 m ρ c
  show after hostOps0_2 (W2 m ρ c) (Proc.devRef .tc main_v16) = _
  generalize W2 m ρ c = V at h0 ⊢
  dsimp only [hostOps0_2]
  after_results_simp
  rw [h0]
  rfl

/-- The inverse square root of the safe degree. -/
theorem W3_v17 : W3 m ρ c (Proc.devRef .tc main_v17) = val_main_v17 (F := Ideal) (m ((c : Thread nD τ).loc main_arg1)) (m ((c : Thread nD τ).loc main_arg2)) := by
  have h0 := W2_v14 m ρ c
  show after hostOps0_2 (W2 m ρ c) (Proc.devRef .tc main_v17) = _
  generalize W2 m ρ c = V at h0 ⊢
  dsimp only [hostOps0_2]
  after_results_simp
  rw [h0]
  rfl

/-- The constant zero. -/
theorem W3_cst_4 : W3 m ρ c (Proc.devRef .tc main_cst_4) = val_main_cst_4 (F := Ideal) := by
  show after hostOps0_2 (W2 m ρ c) (Proc.devRef .tc main_cst_4) = _
  generalize W2 m ρ c = V
  dsimp only [hostOps0_2]
  after_results_simp
  rfl

theorem W3_v5 : W3 m ρ c (Proc.devRef .tc main_v5) = val_main_v5 (F := Ideal) (m ((c : Thread nD τ).loc main_arg1)) :=
  (StableHlo.after_of_forall_not_mem (b := (Proc.devRef .tc main_v5)) hostOps0_2 (W2 m ρ c) (by nowrite hostOps0_2)).trans (W2_v5 m ρ c)

theorem W3_v6 : W3 m ρ c (Proc.devRef .tc main_v6) = val_main_v6 (F := Ideal) (m ((c : Thread nD τ).loc main_arg1)) :=
  (StableHlo.after_of_forall_not_mem (b := (Proc.devRef .tc main_v6)) hostOps0_2 (W2 m ρ c) (by nowrite hostOps0_2)).trans (W2_v6 m ρ c)

theorem W3_v8 : W3 m ρ c (Proc.devRef .tc main_v8) = val_main_v8 (F := Ideal) (m ((c : Thread nD τ).loc main_arg2)) :=
  (StableHlo.after_of_forall_not_mem (b := (Proc.devRef .tc main_v8)) hostOps0_2 (W2 m ρ c) (by nowrite hostOps0_2)).trans (W2_v8 m ρ c)

/-- The inverse square root of the degree where it is positive, zero elsewhere. -/
theorem W4_v18 : W4 m ρ c (Proc.devRef .tc main_v18) = val_main_v18 (F := Ideal) (m ((c : Thread nD τ).loc main_arg1)) (m ((c : Thread nD τ).loc main_arg2)) := by
  have h0 := W3_v16 m ρ c
  have h1 := W3_v17 m ρ c
  have h2 := W3_cst_4 m ρ c
  show after hostOps0_3 (W3 m ρ c) (Proc.devRef .tc main_v18) = _
  generalize W3 m ρ c = V at h0 h1 h2 ⊢
  dsimp only [hostOps0_3]
  after_results_simp
  rw [h0, h1, h2]
  simp only [TRef.ofBuf_toBuf_id]
  rw [toBuf_v18, ofBuf_v16, ofBuf_v17, ofBuf_cst_4]
  rfl

theorem W4_v5 : W4 m ρ c (Proc.devRef .tc main_v5) = val_main_v5 (F := Ideal) (m ((c : Thread nD τ).loc main_arg1)) :=
  (StableHlo.after_of_forall_not_mem (b := (Proc.devRef .tc main_v5)) hostOps0_3 (W3 m ρ c) (by nowrite hostOps0_3)).trans (W3_v5 m ρ c)

theorem W4_v6 : W4 m ρ c (Proc.devRef .tc main_v6) = val_main_v6 (F := Ideal) (m ((c : Thread nD τ).loc main_arg1)) :=
  (StableHlo.after_of_forall_not_mem (b := (Proc.devRef .tc main_v6)) hostOps0_3 (W3 m ρ c) (by nowrite hostOps0_3)).trans (W3_v6 m ρ c)

theorem W4_v8 : W4 m ρ c (Proc.devRef .tc main_v8) = val_main_v8 (F := Ideal) (m ((c : Thread nD τ).loc main_arg2)) :=
  (StableHlo.after_of_forall_not_mem (b := (Proc.devRef .tc main_v8)) hostOps0_3 (W3 m ρ c) (by nowrite hostOps0_3)).trans (W3_v8 m ρ c)

/-- The symmetric normalisation of every edge and self loop, at the first region's entry. -/
theorem W5_v34 : W5 m ρ c (Proc.devRef .tc main_v34) = val_main_v34 (F := Ideal) (m ((c : Thread nD τ).loc main_arg1)) (m ((c : Thread nD τ).loc main_arg2)) := by
  have h0 := W4_v18 m ρ c
  have h1 := W4_v5 m ρ c
  have h2 := W4_v8 m ρ c
  have h3 := W4_v6 m ρ c
  show after hostOps0_4 (W4 m ρ c) (Proc.devRef .tc main_v34) = _
  generalize W4 m ρ c = V at h0 h1 h2 h3 ⊢
  dsimp only [hostOps0_4]
  after_results_simp
  rw [h0, h1, h2, h3]
  rfl

theorem W5_v5 : W5 m ρ c (Proc.devRef .tc main_v5) = val_main_v5 (F := Ideal) (m ((c : Thread nD τ).loc main_arg1)) :=
  (StableHlo.after_of_forall_not_mem (b := (Proc.devRef .tc main_v5)) hostOps0_4 (W4 m ρ c) (by nowrite hostOps0_4)).trans (W4_v5 m ρ c)

theorem W5_v6 : W5 m ρ c (Proc.devRef .tc main_v6) = val_main_v6 (F := Ideal) (m ((c : Thread nD τ).loc main_arg1)) :=
  (StableHlo.after_of_forall_not_mem (b := (Proc.devRef .tc main_v6)) hostOps0_4 (W4 m ρ c) (by nowrite hostOps0_4)).trans (W4_v6 m ρ c)

theorem W6_v5 : W6 m ρ c (Proc.devRef .tc main_v5) = val_main_v5 (F := Ideal) (m ((c : Thread nD τ).loc main_arg1)) :=
  ((W6_of_ne m ρ c main_v5 (by decide)).trans (W5_v5 m ρ c))

theorem W6_v6 : W6 m ρ c (Proc.devRef .tc main_v6) = val_main_v6 (F := Ideal) (m ((c : Thread nD τ).loc main_arg1)) :=
  ((W6_of_ne m ρ c main_v6 (by decide)).trans (W5_v6 m ρ c))

theorem W6_v34 : W6 m ρ c (Proc.devRef .tc main_v34) = val_main_v34 (F := Ideal) (m ((c : Thread nD τ).loc main_arg1)) (m ((c : Thread nD τ).loc main_arg2)) :=
  ((W6_of_ne m ρ c main_v34 (by decide)).trans (W5_v34 m ρ c))

theorem W8_v5 : W8 m ρ c (Proc.devRef .tc main_v5) = val_main_v5 (F := Ideal) (m ((c : Thread nD τ).loc main_arg1)) :=
  ((W8_of_ne m ρ c main_v5 (by decide)).trans ((StableHlo.after_of_forall_not_mem (b := (Proc.devRef .tc main_v5)) hostOps1 (W6 m ρ c) (by nowrite hostOps1)).trans ((W6_of_ne m ρ c main_v5 (by decide)).trans (W5_v5 m ρ c))))

theorem W8_v6 : W8 m ρ c (Proc.devRef .tc main_v6) = val_main_v6 (F := Ideal) (m ((c : Thread nD τ).loc main_arg1)) :=
  ((W8_of_ne m ρ c main_v6 (by decide)).trans ((StableHlo.after_of_forall_not_mem (b := (Proc.devRef .tc main_v6)) hostOps1 (W6 m ρ c) (by nowrite hostOps1)).trans ((W6_of_ne m ρ c main_v6 (by decide)).trans (W5_v6 m ρ c))))

theorem W8_v34 : W8 m ρ c (Proc.devRef .tc main_v34) = val_main_v34 (F := Ideal) (m ((c : Thread nD τ).loc main_arg1)) (m ((c : Thread nD τ).loc main_arg2)) :=
  ((W8_of_ne m ρ c main_v34 (by decide)).trans ((StableHlo.after_of_forall_not_mem (b := (Proc.devRef .tc main_v34)) hostOps1 (W6 m ρ c) (by nowrite hostOps1)).trans ((W6_of_ne m ρ c main_v34 (by decide)).trans (W5_v34 m ρ c))))

theorem W10_v5 : W10 m ρ c (Proc.devRef .tc main_v5) = val_main_v5 (F := Ideal) (m ((c : Thread nD τ).loc main_arg1)) :=
  ((W10_of_ne m ρ c main_v5 (by decide)).trans ((StableHlo.after_of_forall_not_mem (b := (Proc.devRef .tc main_v5)) hostOps2 (W8 m ρ c) (by nowrite hostOps2)).trans ((W8_of_ne m ρ c main_v5 (by decide)).trans ((StableHlo.after_of_forall_not_mem (b := (Proc.devRef .tc main_v5)) hostOps1 (W6 m ρ c) (by nowrite hostOps1)).trans ((W6_of_ne m ρ c main_v5 (by decide)).trans (W5_v5 m ρ c))))))

theorem W10_v6 : W10 m ρ c (Proc.devRef .tc main_v6) = val_main_v6 (F := Ideal) (m ((c : Thread nD τ).loc main_arg1)) :=
  ((W10_of_ne m ρ c main_v6 (by decide)).trans ((StableHlo.after_of_forall_not_mem (b := (Proc.devRef .tc main_v6)) hostOps2 (W8 m ρ c) (by nowrite hostOps2)).trans ((W8_of_ne m ρ c main_v6 (by decide)).trans ((StableHlo.after_of_forall_not_mem (b := (Proc.devRef .tc main_v6)) hostOps1 (W6 m ρ c) (by nowrite hostOps1)).trans ((W6_of_ne m ρ c main_v6 (by decide)).trans (W5_v6 m ρ c))))))

theorem W10_v34 : W10 m ρ c (Proc.devRef .tc main_v34) = val_main_v34 (F := Ideal) (m ((c : Thread nD τ).loc main_arg1)) (m ((c : Thread nD τ).loc main_arg2)) :=
  ((W10_of_ne m ρ c main_v34 (by decide)).trans ((StableHlo.after_of_forall_not_mem (b := (Proc.devRef .tc main_v34)) hostOps2 (W8 m ρ c) (by nowrite hostOps2)).trans ((W8_of_ne m ρ c main_v34 (by decide)).trans ((StableHlo.after_of_forall_not_mem (b := (Proc.devRef .tc main_v34)) hostOps1 (W6 m ρ c) (by nowrite hostOps1)).trans ((W6_of_ne m ρ c main_v34 (by decide)).trans (W5_v34 m ρ c))))))

end Cert.KernelIdeal.Chain

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.LayerSpec.lean ====
/-
  The three functions of whole arrays that the layers of the network compute, entry by entry over the extended reals.

    matProd a w      (i, j) ↦ Σ_k a[i, k] · w[k, j]
    biasReluProd a b w  (i, j) ↦ Σ_k max(a[i, k] + b[0, k], 0) · w[k, j]      (b a one-row matrix)
    biasLogistic a b    (i, z) ↦ logistic(a[i, z] + b[0, 0])                  (a a one-column matrix, b one entry)

  A row-blocked kernel computes each of them block of rows by block of rows, and a host program computes them with
  whole-array operations; both are compared with these.
-/
import Idealize.ShloMosaic.PureOps.Ideal.Laws
import Idealize.ShloMosaic.Lib.ValueIdx

noncomputable section

open scoped BigOperators

namespace Idealize.ShloMosaic.ValueIdx

open Idealize.ShloMosaic

/-- The matrix product of an [M, K] array and a [K, N] array. -/
def matProd {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0) k) * w (ix2 k (i 1))

theorem matProd_apply {M K N : Nat} (a : (⟨2, ![M, K]⟩ : Shape).Idx → EReal) (w : (⟨2, ![K, N]⟩ : Shape).Idx → EReal)
    (p : Fin M) (q : Fin N) : matProd a w (ix2 p q) = ∑ k : Fin K, a (ix2 p k) * w (ix2 k q) := rfl

/-- A bias row added to every row, clipped below at zero, then the matrix product with the weights. -/
def biasReluProd {M K N : Nat} (a : (⟨2, ![M, K]⟩ : Shape).Idx → EReal) (b : (⟨2, ![1, K]⟩ : Shape).Idx → EReal)
    (w : (⟨2, ![K, N]⟩ : Shape).Idx → EReal) : (⟨2, ![M, N]⟩ : Shape).Idx → EReal :=
  fun i => ∑ k : Fin K, max (a (ix2 (i 0) k) + b (ix2 (0 : Fin 1) k)) (FloatOps.ofBits (F := Ideal) .f32 0x00000000#32) * w (ix2 k (i 1))

theorem biasReluProd_apply {M K N : Nat} (a : (⟨2, ![M, K]⟩ : Shape).Idx → EReal) (b : (⟨2, ![1, K]⟩ : Shape).Idx → EReal)
    (w : (⟨2, ![K, N]⟩ : Shape).Idx → EReal) (p : Fin M) (q : Fin N) :
    biasReluProd a b w (ix2 p q)
      = ∑ k : Fin K, max (a (ix2 p k) + b (ix2 (0 : Fin 1) k)) (FloatOps.ofBits (F := Ideal) .f32 0x00000000#32) * w (ix2 k q) := rfl

/-- The logistic function of a one-column array plus a one-entry bias. -/
def biasLogistic {M : Nat} (a : (⟨2, ![M, 1]⟩ : Shape).Idx → EReal) (b : (⟨2, ![1, 1]⟩ : Shape).Idx → EReal) :
    (⟨2, ![M, 1]⟩ : Shape).Idx → EReal :=
  fun i => Ideal.logistic (a (ix2 (i 0) (i 1)) + b (ix2 (0 : Fin 1) (0 : Fin 1)))

theorem biasLogistic_apply {M : Nat} (a : (⟨2, ![M, 1]⟩ : Shape).Idx → EReal) (b : (⟨2, ![1, 1]⟩ : Shape).Idx → EReal)
    (p : Fin M) (z : Fin 1) : biasLogistic a b (ix2 p z) = Ideal.logistic (a (ix2 p z) + b (ix2 (0 : Fin 1) (0 : Fin 1))) := rfl

end Idealize.ShloMosaic.ValueIdx

end
-- ==== Proof.Bodies.lean ====
/-
  What each of the five kernel bodies stores, read at one entry at the ideal instance, as a function of the blocks it
  loads.  The first body is a matrix product: entry (p, q) is the sum over the shared axis of row p of the left block
  times column q of the right one.  The next three add a bias row to every row of the block, clip below at zero and
  multiply by a weight matrix: entry (p, q) is the sum over k of max(x[p, k] + b[0, k], 0) · w[k, q].  The last adds
  a one-entry bias and applies the logistic function.  Changes of float format are the identity at the ideal instance,
  and a product into the zero accumulator is the plain sum.
-/
import proofs.«144158_j2422361555109_2_alg».proof.Proof.Gen.KernelIdeal.Skeleton
import proofs.«144158_j2422361555109_2_alg».proof.Proof.LibMatDot
import proofs.«144158_j2422361555109_2_alg».proof.Proof.LayerSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The first region's stored value at entry (p, q): row p of the input block times column q of the weights. -/
theorem pay0_apply (x0 : Vec Ideal S10000x128 .f32) (x1 : Vec Ideal S128x12 .f32) (p : Fin 10000) (q : Fin 12) :
    k0_pay1 (F := Ideal) x0 x1 (ix2 p q) = ∑ k : Fin 128, x0 (ix2 p k) * x1 (ix2 k q) := by
  unfold k0_pay1
  exact mat_dot_zero dot_S10000x128_S128x12_S10000x12_1_0_0_1_n_n none rfl rfl
    (fun j c => by
      unfold DotDims.lhsIdx
      rw [dif_neg (show ¬(0 : Fin S10000x128.rank) ∈ dot_S10000x128_S128x12_S10000x12_1_0_0_1_n_n.lhsBatch by decide), dif_pos (show (0 : Fin S10000x128.rank) ∈ dot_S10000x128_S128x12_S10000x12_1_0_0_1_n_n.lhsNonContracting by decide)]
      rfl)
    (fun j c => dot_S10000x128_S128x12_S10000x12_1_0_0_1_n_n.lhsIdx_val_of_single rfl j c)
    (fun j c => dot_S10000x128_S128x12_S10000x12_1_0_0_1_n_n.rhsIdx_val_of_single rfl j c)
    (fun j c => by
      unfold DotDims.rhsIdx
      rw [dif_neg (show ¬(1 : Fin S128x12.rank) ∈ dot_S10000x128_S128x12_S10000x12_1_0_0_1_n_n.rhsBatch by decide), dif_pos (show (1 : Fin S128x12.rank) ∈ dot_S10000x128_S128x12_S10000x12_1_0_0_1_n_n.rhsNonContracting by decide)]
      rfl)
    _ _ p q

/-- Region 1's stored value at entry (p, q): the row p of the input block, with the bias row added and clipped below
    at zero, times column q of the weights, summed over the 12 shared positions. -/
theorem pay1_apply (x0 : Vec Ideal S10000x12 .f32) (x1 : Vec Ideal S1x12 .f32) (x2 : Vec Ideal S12x6 .f32)
    (p : Fin 10000) (q : Fin 6) :
    k1_pay1 (F := Ideal) x0 x1 x2 (ix2 p q)
      = ∑ k : Fin 12, max (x0 (ix2 p k) + x1 (ix2 (0 : Fin 1) k)) (FloatOps.ofBits (F := Ideal) .f32 0x00000000#32) * x2 (ix2 k q) := by
  unfold k1_pay1
  refine (mat_dot_zero dot_S10000x12_S12x6_S10000x6_1_0_0_1_n_n none rfl rfl
    (fun j c => by
      unfold DotDims.lhsIdx
      rw [dif_neg (show ¬(0 : Fin S10000x12.rank) ∈ dot_S10000x12_S12x6_S10000x6_1_0_0_1_n_n.lhsBatch by decide), dif_pos (show (0 : Fin S10000x12.rank) ∈ dot_S10000x12_S12x6_S10000x6_1_0_0_1_n_n.lhsNonContracting by decide)]
      rfl)
    (fun j c => dot_S10000x12_S12x6_S10000x6_1_0_0_1_n_n.lhsIdx_val_of_single rfl j c)
    (fun j c => dot_S10000x12_S12x6_S10000x6_1_0_0_1_n_n.rhsIdx_val_of_single rfl j c)
    (fun j c => by
      unfold DotDims.rhsIdx
      rw [dif_neg (show ¬(1 : Fin S12x6.rank) ∈ dot_S10000x12_S12x6_S10000x6_1_0_0_1_n_n.rhsBatch by decide), dif_pos (show (1 : Fin S12x6.rank) ∈ dot_S10000x12_S12x6_S10000x6_1_0_0_1_n_n.rhsNonContracting by decide)]
      rfl)
    _ _ p q).trans ?_
  refine Finset.sum_congr rfl fun k _ => ?_
  rw [shapeCast_self, shapeCast_self]
  show max (x0 (ix2 p k) + broadcastTo S10000x12 x1 broadcasts_S1x12_S10000x12 (ix2 p k)) _ * x2 (ix2 k q) = _
  rw [broadcastTo_apply x1 broadcasts_S1x12_S10000x12 (ix2 p k) (ix2 (0 : Fin 1) k) (fun a => by
    match a with
    | ⟨0, _⟩ => rfl
    | ⟨1, _⟩ => show k.val = if (12 : Nat) = 1 then 0 else k.val; rw [if_neg (by decide)])]
  rfl

/-- Region 2's stored value at entry (p, q): the row p of the input block, with the bias row added and clipped below
    at zero, times column q of the weights, summed over the 6 shared positions. -/
theorem pay2_apply (x0 : Vec Ideal S10000x6 .f32) (x1 : Vec Ideal S1x6 .f32) (x2 : Vec Ideal S6x3 .f32)
    (p : Fin 10000) (q : Fin 3) :
    k2_pay1 (F := Ideal) x0 x1 x2 (ix2 p q)
      = ∑ k : Fin 6, max (x0 (ix2 p k) + x1 (ix2 (0 : Fin 1) k)) (FloatOps.ofBits (F := Ideal) .f32 0x00000000#32) * x2 (ix2 k q) := by
  unfold k2_pay1
  refine (mat_dot_zero dot_S10000x6_S6x3_S10000x3_1_0_0_1_n_n none rfl rfl
    (fun j c => by
      unfold DotDims.lhsIdx
      rw [dif_neg (show ¬(0 : Fin S10000x6.rank) ∈ dot_S10000x6_S6x3_S10000x3_1_0_0_1_n_n.lhsBatch by decide), dif_pos (show (0 : Fin S10000x6.rank) ∈ dot_S10000x6_S6x3_S10000x3_1_0_0_1_n_n.lhsNonContracting by decide)]
      rfl)
    (fun j c => dot_S10000x6_S6x3_S10000x3_1_0_0_1_n_n.lhsIdx_val_of_single rfl j c)
    (fun j c => dot_S10000x6_S6x3_S10000x3_1_0_0_1_n_n.rhsIdx_val_of_single rfl j c)
    (fun j c => by
      unfold DotDims.rhsIdx
      rw [dif_neg (show ¬(1 : Fin S6x3.rank) ∈ dot_S10000x6_S6x3_S10000x3_1_0_0_1_n_n.rhsBatch by decide), dif_pos (show (1 : Fin S6x3.rank) ∈ dot_S10000x6_S6x3_S10000x3_1_0_0_1_n_n.rhsNonContracting by decide)]
      rfl)
    _ _ p q).trans ?_
  refine Finset.sum_congr rfl fun k _ => ?_
  rw [shapeCast_self, shapeCast_self]
  show max (x0 (ix2 p k) + broadcastTo S10000x6 x1 broadcasts_S1x6_S10000x6 (ix2 p k)) _ * x2 (ix2 k q) = _
  rw [broadcastTo_apply x1 broadcasts_S1x6_S10000x6 (ix2 p k) (ix2 (0 : Fin 1) k) (fun a => by
    match a with
    | ⟨0, _⟩ => rfl
    | ⟨1, _⟩ => show k.val = if (6 : Nat) = 1 then 0 else k.val; rw [if_neg (by decide)])]
  rfl

/-- Region 3's stored value at entry (p, q): the row p of the input block, with the bias row added and clipped below
    at zero, times column q of the weights, summed over the 3 shared positions. -/
theorem pay3_apply (x0 : Vec Ideal S10000x3 .f32) (x1 : Vec Ideal S1x3 .f32) (x2 : Vec Ideal S3x1 .f32)
    (p : Fin 10000) (q : Fin 1) :
    k3_pay1 (F := Ideal) x0 x1 x2 (ix2 p q)
      = ∑ k : Fin 3, max (x0 (ix2 p k) + x1 (ix2 (0 : Fin 1) k)) (FloatOps.ofBits (F := Ideal) .f32 0x00000000#32) * x2 (ix2 k q) := by
  unfold k3_pay1
  refine (mat_dot_zero dot_S10000x3_S3x1_S10000x1_1_0_0_1_n_n none rfl rfl
    (fun j c => by
      unfold DotDims.lhsIdx
      rw [dif_neg (show ¬(0 : Fin S10000x3.rank) ∈ dot_S10000x3_S3x1_S10000x1_1_0_0_1_n_n.lhsBatch by decide), dif_pos (show (0 : Fin S10000x3.rank) ∈ dot_S10000x3_S3x1_S10000x1_1_0_0_1_n_n.lhsNonContracting by decide)]
      rfl)
    (fun j c => dot_S10000x3_S3x1_S10000x1_1_0_0_1_n_n.lhsIdx_val_of_single rfl j c)
    (fun j c => dot_S10000x3_S3x1_S10000x1_1_0_0_1_n_n.rhsIdx_val_of_single rfl j c)
    (fun j c => by
      unfold DotDims.rhsIdx
      rw [dif_neg (show ¬(1 : Fin S3x1.rank) ∈ dot_S10000x3_S3x1_S10000x1_1_0_0_1_n_n.rhsBatch by decide), dif_pos (show (1 : Fin S3x1.rank) ∈ dot_S10000x3_S3x1_S10000x1_1_0_0_1_n_n.rhsNonContracting by decide)]
      rfl)
    _ _ p q).trans ?_
  refine Finset.sum_congr rfl fun k _ => ?_
  rw [shapeCast_self, shapeCast_self]
  show max (x0 (ix2 p k) + broadcastTo S10000x3 x1 broadcasts_S1x3_S10000x3 (ix2 p k)) _ * x2 (ix2 k q) = _
  rw [broadcastTo_apply x1 broadcasts_S1x3_S10000x3 (ix2 p k) (ix2 (0 : Fin 1) k) (fun a => by
    match a with
    | ⟨0, _⟩ => rfl
    | ⟨1, _⟩ => show k.val = if (3 : Nat) = 1 then 0 else k.val; rw [if_neg (by decide)])]
  rfl

/-- The last region's stored value at entry (p, z): the logistic function of the input entry plus the one bias entry. -/
theorem pay4_apply (x0 : Vec Ideal S10000x1 .f32) (x1 : Vec Ideal S1x1 .f32) (p : Fin 10000) (z : Fin 1) :
    k4_pay1 (F := Ideal) x0 x1 (ix2 p z) = Ideal.logistic (x0 (ix2 p z) + x1 (ix2 (0 : Fin 1) (0 : Fin 1))) := by
  unfold k4_pay1
  rw [shapeCast_self, shapeCast_self]
  show Ideal.logistic (x0 (ix2 p z) + broadcastTo S10000x1 x1 broadcasts_S1x1_S10000x1 (ix2 p z)) = _
  rw [broadcastTo_apply x1 broadcasts_S1x1_S10000x1 (ix2 p z) (ix2 (0 : Fin 1) (0 : Fin 1)) (fun a => by
    match a with
    | ⟨0, _⟩ => rfl
    | ⟨1, _⟩ => rfl)]

/-- Region 0 on a block of rows: when the input block is rows `r·10000 …` of the array `a`, the stored value at
    entry `y` of the block is the matrix product of the whole array at the entry `i` that `y` is in the array. -/
theorem pay0_block (a : S100000x128.Idx → EReal) (x0 : Vec Ideal S10000x128 .f32) (x1 : Vec Ideal S128x12 .f32) (r : Nat)
    (h0 : ∀ (p : Fin 10000) (k : Fin 128) (P : Fin 100000), P.val = r * 10000 + p.val → x0 (ix2 p k) = a (ix2 P k))
    (y : S10000x12.Idx) (i : S100000x12.Idx) (hi0 : (i 0).val = r * 10000 + (y 0).val) (hi1 : (i 1).val = (y 1).val) :
    k0_pay1 (F := Ideal) x0 x1 y = matProd a x1 i := by
  obtain ⟨p, q, rfl⟩ : ∃ (p : Fin 10000) (q : Fin 12), y = ix2 p q := ⟨y 0, y 1, eq_ix2 y⟩
  obtain ⟨P, Q, rfl⟩ : ∃ (P : Fin 100000) (Q : Fin 12), i = ix2 P Q := ⟨i 0, i 1, eq_ix2 i⟩
  obtain rfl : Q = q := Fin.ext hi1
  rw [pay0_apply, matProd_apply]
  refine Finset.sum_congr rfl fun k _ => ?_
  rw [h0 p k P hi0]

/-- Region 1 on a block of rows: when the input block is rows `r·10000 …` of the array `a`, the stored value at
    entry `y` of the block is the layer's function of the whole array at the entry `i` that `y` is in the array. -/
theorem pay1_block (a : S100000x12.Idx → EReal) (x0 : Vec Ideal S10000x12 .f32) (x1 : Vec Ideal S1x12 .f32)
    (x2 : Vec Ideal S12x6 .f32) (r : Nat)
    (h0 : ∀ (p : Fin 10000) (k : Fin 12) (P : Fin 100000), P.val = r * 10000 + p.val → x0 (ix2 p k) = a (ix2 P k))
    (y : S10000x6.Idx) (i : S100000x6.Idx) (hi0 : (i 0).val = r * 10000 + (y 0).val) (hi1 : (i 1).val = (y 1).val) :
    k1_pay1 (F := Ideal) x0 x1 x2 y = biasReluProd a x1 x2 i := by
  obtain ⟨p, q, rfl⟩ : ∃ (p : Fin 10000) (q : Fin 6), y = ix2 p q := ⟨y 0, y 1, eq_ix2 y⟩
  obtain ⟨P, Q, rfl⟩ : ∃ (P : Fin 100000) (Q : Fin 6), i = ix2 P Q := ⟨i 0, i 1, eq_ix2 i⟩
  obtain rfl : Q = q := Fin.ext hi1
  rw [pay1_apply, biasReluProd_apply]
  refine Finset.sum_congr rfl fun k _ => ?_
  rw [h0 p k P hi0]

/-- Region 2 on a block of rows: when the input block is rows `r·10000 …` of the array `a`, the stored value at
    entry `y` of the block is the layer's function of the whole array at the entry `i` that `y` is in the array. -/
theorem pay2_block (a : S100000x6.Idx → EReal) (x0 : Vec Ideal S10000x6 .f32) (x1 : Vec Ideal S1x6 .f32)
    (x2 : Vec Ideal S6x3 .f32) (r : Nat)
    (h0 : ∀ (p : Fin 10000) (k : Fin 6) (P : Fin 100000), P.val = r * 10000 + p.val → x0 (ix2 p k) = a (ix2 P k))
    (y : S10000x3.Idx) (i : S100000x3.Idx) (hi0 : (i 0).val = r * 10000 + (y 0).val) (hi1 : (i 1).val = (y 1).val) :
    k2_pay1 (F := Ideal) x0 x1 x2 y = biasReluProd a x1 x2 i := by
  obtain ⟨p, q, rfl⟩ : ∃ (p : Fin 10000) (q : Fin 3), y = ix2 p q := ⟨y 0, y 1, eq_ix2 y⟩
  obtain ⟨P, Q, rfl⟩ : ∃ (P : Fin 100000) (Q : Fin 3), i = ix2 P Q := ⟨i 0, i 1, eq_ix2 i⟩
  obtain rfl : Q = q := Fin.ext hi1
  rw [pay2_apply, biasReluProd_apply]
  refine Finset.sum_congr rfl fun k _ => ?_
  rw [h0 p k P hi0]

/-- Region 3 on a block of rows: when the input block is rows `r·10000 …` of the array `a`, the stored value at
    entry `y` of the block is the layer's function of the whole array at the entry `i` that `y` is in the array. -/
theorem pay3_block (a : S100000x3.Idx → EReal) (x0 : Vec Ideal S10000x3 .f32) (x1 : Vec Ideal S1x3 .f32)
    (x2 : Vec Ideal S3x1 .f32) (r : Nat)
    (h0 : ∀ (p : Fin 10000) (k : Fin 3) (P : Fin 100000), P.val = r * 10000 + p.val → x0 (ix2 p k) = a (ix2 P k))
    (y : S10000x1.Idx) (i : S100000x1.Idx) (hi0 : (i 0).val = r * 10000 + (y 0).val) (hi1 : (i 1).val = (y 1).val) :
    k3_pay1 (F := Ideal) x0 x1 x2 y = biasReluProd a x1 x2 i := by
  obtain ⟨p, q, rfl⟩ : ∃ (p : Fin 10000) (q : Fin 1), y = ix2 p q := ⟨y 0, y 1, eq_ix2 y⟩
  obtain ⟨P, Q, rfl⟩ : ∃ (P : Fin 100000) (Q : Fin 1), i = ix2 P Q := ⟨i 0, i 1, eq_ix2 i⟩
  obtain rfl : Q = q := Fin.ext hi1
  rw [pay3_apply, biasReluProd_apply]
  refine Finset.sum_congr rfl fun k _ => ?_
  rw [h0 p k P hi0]

/-- Region 4 on a block of rows: the logistic layer of the whole one-column array at the matching entry. -/
theorem pay4_block (a : S100000x1.Idx → EReal) (x0 : Vec Ideal S10000x1 .f32) (x1 : Vec Ideal S1x1 .f32) (r : Nat)
    (h0 : ∀ (p : Fin 10000) (z : Fin 1) (P : Fin 100000), P.val = r * 10000 + p.val → x0 (ix2 p z) = a (ix2 P z))
    (y : S10000x1.Idx) (i : S100000x1.Idx) (hi0 : (i 0).val = r * 10000 + (y 0).val) (hi1 : (i 1).val = (y 1).val) :
    k4_pay1 (F := Ideal) x0 x1 y = biasLogistic a x1 i := by
  obtain ⟨p, z, rfl⟩ : ∃ (p : Fin 10000) (z : Fin 1), y = ix2 p z := ⟨y 0, y 1, eq_ix2 y⟩
  obtain ⟨P, Z, rfl⟩ : ∃ (P : Fin 100000) (Z : Fin 1), i = ix2 P Z := ⟨i 0, i 1, eq_ix2 i⟩
  obtain rfl : Z = z := Fin.ext hi1
  rw [pay4_apply, biasLogistic_apply, h0 p _ P hi0]

end Cert.KernelIdeal.Body

end
-- ==== Proof.Region0.lean ====
/-
  Region 0 of the kernel program as a function of whole arrays: whatever the buffers hold when the region is entered,
  its output array ends holding the matrix product of the input array and the weights.  The grid has ten points; point t reads rows
  10000·t … 10000·t + 9999 of the row-blocked input, the other inputs whole, and writes the same rows of the output, so
  the ten write-backs tile the output array and each is the layer's function of the whole arrays read through its rows.
-/
import proofs.«144158_j2422361555109_2_alg».proof.Proof.Gen.KernelIdeal.Frame
import proofs.«144158_j2422361555109_2_alg».proof.Proof.Bodies
import proofs.«144158_j2422361555109_2_alg».proof.Proof.LayerSpec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.KernelIdeal.Body

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block row `t`, column 0; the others at (0, 0). -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Input window 1 has one block, the whole array, at every point. -/
theorem iblk_whole1 (c : Dev nD) (t : Fin cfg0.N) : iblk0 V c 1 t = (V c main_arg3 : S128x12.Idx → EReal) := by
  obtain ⟨e0, e1, e2, e3, e4, e5⟩ := idx_facts t
  funext y
  unfold iblk0
  rw [View.read_apply]
  show V c main_arg3 (((cfg0.win 1).blk t).view.emb y) = V c main_arg3 y
  congr 1
  funext a
  apply Fin.ext
  match a with
  | ⟨0, _⟩ => show win0_1.index t (0 : Fin 2) * 128 + 1 * (y 0).val = (y 0).val; omega
  | ⟨1, _⟩ => show win0_1.index t (1 : Fin 2) * 12 + 1 * (y 1).val = (y 1).val; omega

/-- The row-blocked input's block at point `t` is rows `10000·t …` of its array. -/
theorem iblk_rows (c : Dev nD) (t : Fin cfg0.N) (p : Fin 10000) (k : Fin 128) (P : Fin 100000)
    (hP : P.val = win0_2.index t (0 : Fin 2) * 10000 + p.val) :
    (iblk0 V c 0 t : S10000x128.Idx → EReal) (ix2 p k) = (V c main_arg0 : S100000x128.Idx → EReal) (ix2 P k) := by
  obtain ⟨e0, e1, e2, e3, e4, e5⟩ := idx_facts t
  unfold iblk0
  rw [View.read_apply]
  show V c main_arg0 (((cfg0.win 0).blk t).view.emb (ix2 p k)) = V c main_arg0 (ix2 P k)
  congr 1
  funext a
  apply Fin.ext
  match a with
  | ⟨0, _⟩ => show win0_0.index t (0 : Fin 2) * 10000 + 1 * p.val = P.val; omega
  | ⟨1, _⟩ => show win0_0.index t (1 : Fin 2) * 128 + 1 * k.val = k.val; omega

/-- What point `t` writes back is its block of the layer's function of the whole arrays as the region finds them. -/
theorem flushed_eq (c : Dev nD) (t : Fin cfg0.N) :
    (dat0 V c).flushed 2 t = ((cfg0.win 2).blk t).view.read (Elt Ideal) (matProd (V c main_arg0 : S100000x128.Idx → EReal) (V c main_arg3 : S128x12.Idx → EReal)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x12) hz]
  rw [iblk_whole1 V c t]
  obtain ⟨e0, e1, e2, e3, e4, e5⟩ := idx_facts t
  funext j
  show k0_pay1 (F := Ideal) (iblk0 V c 0 t) (V c main_arg3 : S128x12.Idx → EReal) j = (matProd (V c main_arg0 : S100000x128.Idx → EReal) (V c main_arg3 : S128x12.Idx → EReal)) (((cfg0.win 2).blk t).view.emb j)
  refine pay0_block (V c main_arg0 : S100000x128.Idx → EReal) (iblk0 V c 0 t) _ (win0_2.index t (0 : Fin 2)) (fun p k P hP => iblk_rows V c t p k P hP) j _ ?_ ?_
  · show win0_2.index t (0 : Fin 2) * 10000 + 1 * (j 0).val = win0_2.index t (0 : Fin 2) * 10000 + (j 0).val; omega
  · show win0_2.index t (1 : Fin 2) * 12 + 1 * (j 1).val = (j 1).val; omega

/-- An index of the output array is in point `t`'s block iff each coordinate is in the block's range on its axis. -/
theorem mem_blk (t : Fin cfg0.N) (i : S100000x12.Idx) :
    i ∈ ((cfg0.win 2).blk t).view.set ↔ ∀ a : Fin 2, win0_2.index t a * S10000x12.size a ≤ (i a).val ∧ (i a).val < win0_2.index t a * S10000x12.size a + S10000x12.size a := by
  show i ∈ ((View.whole main_v35).slice (win0_2.rect t)).set ↔ _
  rw [View.set_slice_whole, Rect.mem_set_unit]
  exact Iff.rfl

/-- Every index of the output array is in the block of the point its row falls in. -/
theorem cover (i : S100000x12.Idx) :
    ∃ t : Fin cfg0.N, (cfg0.win 2).flush t = true ∧ i ∈ ((cfg0.win 2).blk t).view.set := by
  have hi0 : (i 0).val < 100000 := (i 0).isLt
  have hi1 : (i 1).val < 12 := (i 1).isLt
  have hN : cfg0.N = 10 := N_0
  let t : Fin cfg0.N := ⟨(i 0).val / 10000, by rw [hN]; omega⟩
  obtain ⟨e0, e1, e2, e3, e4, e5⟩ := idx_facts t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 12 ≤ (i 1).val ∧ (i 1).val < win0_2.index t (1 : Fin 2) * 12 + 12; omega

/-- The output array after the region: the layer's function of the arrays the region was entered with. -/
theorem final (c : Dev nD) : (dat0 V c).arrAt 2 cfg0.N = (matProd (V c main_arg0 : S100000x128.Idx → EReal) (V c main_arg3 : S128x12.Idx → EReal)) :=
  (dat0 V c).arrAt_eq_of_cover 2 (matProd (V c main_arg0 : S100000x128.Idx → EReal) (V c main_arg3 : S128x12.Idx → EReal)) (fun t _ => flushed_eq V c t) (cover)

end Cert.KernelIdeal.Region0

end
-- ==== Proof.Region1.lean ====
/-
  Region 1 of the kernel program as a function of whole arrays: whatever the buffers hold when the region is entered,
  its output array ends holding the bias row added, clipped at zero, times the weights.  The grid has ten points; point t reads rows
  10000·t … 10000·t + 9999 of the row-blocked input, the other inputs whole, and writes the same rows of the output, so
  the ten write-backs tile the output array and each is the layer's function of the whole arrays read through its rows.
-/
import proofs.«144158_j2422361555109_2_alg».proof.Proof.Gen.KernelIdeal.Frame
import proofs.«144158_j2422361555109_2_alg».proof.Proof.Bodies
import proofs.«144158_j2422361555109_2_alg».proof.Proof.LayerSpec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.KernelIdeal.Body

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block row `t`, column 0; the others at (0, 0). -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- Input window 1 has one block, the whole array, at every point. -/
theorem iblk_whole1 (c : Dev nD) (t : Fin cfg1.N) : iblk1 V c 1 t = (V c main_v49 : S1x12.Idx → EReal) := by
  obtain ⟨e0, e1, e2, e3, e4, e5, e6, e7⟩ := idx_facts t
  funext y
  unfold iblk1
  rw [View.read_apply]
  show V c main_v49 (((cfg1.win 1).blk t).view.emb y) = V c main_v49 y
  congr 1
  funext a
  apply Fin.ext
  match a with
  | ⟨0, _⟩ => show win1_1.index t (0 : Fin 2) * 1 + 1 * (y 0).val = (y 0).val; omega
  | ⟨1, _⟩ => show win1_1.index t (1 : Fin 2) * 12 + 1 * (y 1).val = (y 1).val; omega

/-- Input window 2 has one block, the whole array, at every point. -/
theorem iblk_whole2 (c : Dev nD) (t : Fin cfg1.N) : iblk1 V c 2 t = (V c main_arg5 : S12x6.Idx → EReal) := by
  obtain ⟨e0, e1, e2, e3, e4, e5, e6, e7⟩ := idx_facts t
  funext y
  unfold iblk1
  rw [View.read_apply]
  show V c main_arg5 (((cfg1.win 2).blk t).view.emb y) = V c main_arg5 y
  congr 1
  funext a
  apply Fin.ext
  match a with
  | ⟨0, _⟩ => show win1_2.index t (0 : Fin 2) * 12 + 1 * (y 0).val = (y 0).val; omega
  | ⟨1, _⟩ => show win1_2.index t (1 : Fin 2) * 6 + 1 * (y 1).val = (y 1).val; omega

/-- The row-blocked input's block at point `t` is rows `10000·t …` of its array. -/
theorem iblk_rows (c : Dev nD) (t : Fin cfg1.N) (p : Fin 10000) (k : Fin 12) (P : Fin 100000)
    (hP : P.val = win1_3.index t (0 : Fin 2) * 10000 + p.val) :
    (iblk1 V c 0 t : S10000x12.Idx → EReal) (ix2 p k) = (V c main_v48 : S100000x12.Idx → EReal) (ix2 P k) := by
  obtain ⟨e0, e1, e2, e3, e4, e5, e6, e7⟩ := idx_facts t
  unfold iblk1
  rw [View.read_apply]
  show V c main_v48 (((cfg1.win 0).blk t).view.emb (ix2 p k)) = V c main_v48 (ix2 P k)
  congr 1
  funext a
  apply Fin.ext
  match a with
  | ⟨0, _⟩ => show win1_0.index t (0 : Fin 2) * 10000 + 1 * p.val = P.val; omega
  | ⟨1, _⟩ => show win1_0.index t (1 : Fin 2) * 12 + 1 * k.val = k.val; omega

/-- What point `t` writes back is its block of the layer's function of the whole arrays as the region finds them. -/
theorem flushed_eq (c : Dev nD) (t : Fin cfg1.N) :
    (dat1 V c).flushed 3 t = ((cfg1.win 3).blk t).view.read (Elt Ideal) (biasReluProd (V c main_v48 : S100000x12.Idx → EReal) (V c main_v49 : S1x12.Idx → EReal) (V c main_arg5 : S12x6.Idx → EReal)) := by
  show (cfg1.win 3).cut (grid1.coords t) ((dat1 V c).after 3 t) = _
  rw [after1_3]
  unfold out1_3
  rw [View.canon_unit_zero hz]
  simp only [View.ld_unit_zero (S := S10000x12) hz, View.ld_unit_zero (S := S1x12) hz, View.ld_unit_zero (S := S12x6) hz]
  rw [iblk_whole1 V c t, iblk_whole2 V c t]
  obtain ⟨e0, e1, e2, e3, e4, e5, e6, e7⟩ := idx_facts t
  funext j
  show k1_pay1 (F := Ideal) (iblk1 V c 0 t) (V c main_v49 : S1x12.Idx → EReal) (V c main_arg5 : S12x6.Idx → EReal) j = (biasReluProd (V c main_v48 : S100000x12.Idx → EReal) (V c main_v49 : S1x12.Idx → EReal) (V c main_arg5 : S12x6.Idx → EReal)) (((cfg1.win 3).blk t).view.emb j)
  refine pay1_block (V c main_v48 : S100000x12.Idx → EReal) (iblk1 V c 0 t) _ _ (win1_3.index t (0 : Fin 2)) (fun p k P hP => iblk_rows V c t p k P hP) j _ ?_ ?_
  · show win1_3.index t (0 : Fin 2) * 10000 + 1 * (j 0).val = win1_3.index t (0 : Fin 2) * 10000 + (j 0).val; omega
  · show win1_3.index t (1 : Fin 2) * 6 + 1 * (j 1).val = (j 1).val; omega

/-- An index of the output array is in point `t`'s block iff each coordinate is in the block's range on its axis. -/
theorem mem_blk (t : Fin cfg1.N) (i : S100000x6.Idx) :
    i ∈ ((cfg1.win 3).blk t).view.set ↔ ∀ a : Fin 2, win1_3.index t a * S10000x6.size a ≤ (i a).val ∧ (i a).val < win1_3.index t a * S10000x6.size a + S10000x6.size a := by
  show i ∈ ((View.whole main_v50).slice (win1_3.rect t)).set ↔ _
  rw [View.set_slice_whole, Rect.mem_set_unit]
  exact Iff.rfl

/-- Every index of the output array is in the block of the point its row falls in. -/
theorem cover (i : S100000x6.Idx) :
    ∃ t : Fin cfg1.N, (cfg1.win 3).flush t = true ∧ i ∈ ((cfg1.win 3).blk t).view.set := by
  have hi0 : (i 0).val < 100000 := (i 0).isLt
  have hi1 : (i 1).val < 6 := (i 1).isLt
  have hN : cfg1.N = 10 := N_1
  let t : Fin cfg1.N := ⟨(i 0).val / 10000, by rw [hN]; omega⟩
  obtain ⟨e0, e1, e2, e3, e4, e5, e6, e7⟩ := idx_facts t
  have ht : t.val = (i 0).val / 10000 := rfl
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 6 ≤ (i 1).val ∧ (i 1).val < win1_3.index t (1 : Fin 2) * 6 + 6; omega

/-- The output array after the region: the layer's function of the arrays the region was entered with. -/
theorem final (c : Dev nD) : (dat1 V c).arrAt 3 cfg1.N = (biasReluProd (V c main_v48 : S100000x12.Idx → EReal) (V c main_v49 : S1x12.Idx → EReal) (V c main_arg5 : S12x6.Idx → EReal)) :=
  (dat1 V c).arrAt_eq_of_cover 3 (biasReluProd (V c main_v48 : S100000x12.Idx → EReal) (V c main_v49 : S1x12.Idx → EReal) (V c main_arg5 : S12x6.Idx → EReal)) (fun t _ => flushed_eq V c t) (cover)

end Cert.KernelIdeal.Region1

end
-- ==== Proof.Region2.lean ====
/-
  Region 2 of the kernel program as a function of whole arrays: whatever the buffers hold when the region is entered,
  its output array ends holding the bias row added, clipped at zero, times the weights.  The grid has ten points; point t reads rows
  10000·t … 10000·t + 9999 of the row-blocked input, the other inputs whole, and writes the same rows of the output, so
  the ten write-backs tile the output array and each is the layer's function of the whole arrays read through its rows.
-/
import proofs.«144158_j2422361555109_2_alg».proof.Proof.Gen.KernelIdeal.Frame
import proofs.«144158_j2422361555109_2_alg».proof.Proof.Bodies
import proofs.«144158_j2422361555109_2_alg».proof.Proof.LayerSpec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.KernelIdeal.Body

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block row `t`, column 0; the others at (0, 0). -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- Input window 1 has one block, the whole array, at every point. -/
theorem iblk_whole1 (c : Dev nD) (t : Fin cfg2.N) : iblk2 V c 1 t = (V c main_v64 : S1x6.Idx → EReal) := by
  obtain ⟨e0, e1, e2, e3, e4, e5, e6, e7⟩ := idx_facts t
  funext y
  unfold iblk2
  rw [View.read_apply]
  show V c main_v64 (((cfg2.win 1).blk t).view.emb y) = V c main_v64 y
  congr 1
  funext a
  apply Fin.ext
  match a with
  | ⟨0, _⟩ => show win2_1.index t (0 : Fin 2) * 1 + 1 * (y 0).val = (y 0).val; omega
  | ⟨1, _⟩ => show win2_1.index t (1 : Fin 2) * 6 + 1 * (y 1).val = (y 1).val; omega

/-- Input window 2 has one block, the whole array, at every point. -/
theorem iblk_whole2 (c : Dev nD) (t : Fin cfg2.N) : iblk2 V c 2 t = (V c main_arg7 : S6x3.Idx → EReal) := by
  obtain ⟨e0, e1, e2, e3, e4, e5, e6, e7⟩ := idx_facts t
  funext y
  unfold iblk2
  rw [View.read_apply]
  show V c main_arg7 (((cfg2.win 2).blk t).view.emb y) = V c main_arg7 y
  congr 1
  funext a
  apply Fin.ext
  match a with
  | ⟨0, _⟩ => show win2_2.index t (0 : Fin 2) * 6 + 1 * (y 0).val = (y 0).val; omega
  | ⟨1, _⟩ => show win2_2.index t (1 : Fin 2) * 3 + 1 * (y 1).val = (y 1).val; omega

/-- The row-blocked input's block at point `t` is rows `10000·t …` of its array. -/
theorem iblk_rows (c : Dev nD) (t : Fin cfg2.N) (p : Fin 10000) (k : Fin 6) (P : Fin 100000)
    (hP : P.val = win2_3.index t (0 : Fin 2) * 10000 + p.val) :
    (iblk2 V c 0 t : S10000x6.Idx → EReal) (ix2 p k) = (V c main_v63 : S100000x6.Idx → EReal) (ix2 P k) := by
  obtain ⟨e0, e1, e2, e3, e4, e5, e6, e7⟩ := idx_facts t
  unfold iblk2
  rw [View.read_apply]
  show V c main_v63 (((cfg2.win 0).blk t).view.emb (ix2 p k)) = V c main_v63 (ix2 P k)
  congr 1
  funext a
  apply Fin.ext
  match a with
  | ⟨0, _⟩ => show win2_0.index t (0 : Fin 2) * 10000 + 1 * p.val = P.val; omega
  | ⟨1, _⟩ => show win2_0.index t (1 : Fin 2) * 6 + 1 * k.val = k.val; omega

/-- What point `t` writes back is its block of the layer's function of the whole arrays as the region finds them. -/
theorem flushed_eq (c : Dev nD) (t : Fin cfg2.N) :
    (dat2 V c).flushed 3 t = ((cfg2.win 3).blk t).view.read (Elt Ideal) (biasReluProd (V c main_v63 : S100000x6.Idx → EReal) (V c main_v64 : S1x6.Idx → EReal) (V c main_arg7 : S6x3.Idx → EReal)) := by
  show (cfg2.win 3).cut (grid2.coords t) ((dat2 V c).after 3 t) = _
  rw [after2_3]
  unfold out2_3
  rw [View.canon_unit_zero hz]
  simp only [View.ld_unit_zero (S := S10000x6) hz, View.ld_unit_zero (S := S1x6) hz, View.ld_unit_zero (S := S6x3) hz]
  rw [iblk_whole1 V c t, iblk_whole2 V c t]
  obtain ⟨e0, e1, e2, e3, e4, e5, e6, e7⟩ := idx_facts t
  funext j
  show k2_pay1 (F := Ideal) (iblk2 V c 0 t) (V c main_v64 : S1x6.Idx → EReal) (V c main_arg7 : S6x3.Idx → EReal) j = (biasReluProd (V c main_v63 : S100000x6.Idx → EReal) (V c main_v64 : S1x6.Idx → EReal) (V c main_arg7 : S6x3.Idx → EReal)) (((cfg2.win 3).blk t).view.emb j)
  refine pay2_block (V c main_v63 : S100000x6.Idx → EReal) (iblk2 V c 0 t) _ _ (win2_3.index t (0 : Fin 2)) (fun p k P hP => iblk_rows V c t p k P hP) j _ ?_ ?_
  · show win2_3.index t (0 : Fin 2) * 10000 + 1 * (j 0).val = win2_3.index t (0 : Fin 2) * 10000 + (j 0).val; omega
  · show win2_3.index t (1 : Fin 2) * 3 + 1 * (j 1).val = (j 1).val; omega

/-- An index of the output array is in point `t`'s block iff each coordinate is in the block's range on its axis. -/
theorem mem_blk (t : Fin cfg2.N) (i : S100000x3.Idx) :
    i ∈ ((cfg2.win 3).blk t).view.set ↔ ∀ a : Fin 2, win2_3.index t a * S10000x3.size a ≤ (i a).val ∧ (i a).val < win2_3.index t a * S10000x3.size a + S10000x3.size a := by
  show i ∈ ((View.whole main_v65).slice (win2_3.rect t)).set ↔ _
  rw [View.set_slice_whole, Rect.mem_set_unit]
  exact Iff.rfl

/-- Every index of the output array is in the block of the point its row falls in. -/
theorem cover (i : S100000x3.Idx) :
    ∃ t : Fin cfg2.N, (cfg2.win 3).flush t = true ∧ i ∈ ((cfg2.win 3).blk t).view.set := by
  have hi0 : (i 0).val < 100000 := (i 0).isLt
  have hi1 : (i 1).val < 3 := (i 1).isLt
  have hN : cfg2.N = 10 := N_2
  let t : Fin cfg2.N := ⟨(i 0).val / 10000, by rw [hN]; omega⟩
  obtain ⟨e0, e1, e2, e3, e4, e5, e6, e7⟩ := idx_facts t
  have ht : t.val = (i 0).val / 10000 := rfl
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 3 ≤ (i 1).val ∧ (i 1).val < win2_3.index t (1 : Fin 2) * 3 + 3; omega

/-- The output array after the region: the layer's function of the arrays the region was entered with. -/
theorem final (c : Dev nD) : (dat2 V c).arrAt 3 cfg2.N = (biasReluProd (V c main_v63 : S100000x6.Idx → EReal) (V c main_v64 : S1x6.Idx → EReal) (V c main_arg7 : S6x3.Idx → EReal)) :=
  (dat2 V c).arrAt_eq_of_cover 3 (biasReluProd (V c main_v63 : S100000x6.Idx → EReal) (V c main_v64 : S1x6.Idx → EReal) (V c main_arg7 : S6x3.Idx → EReal)) (fun t _ => flushed_eq V c t) (cover)

end Cert.KernelIdeal.Region2

end
-- ==== Proof.Region3.lean ====
/-
  Region 3 of the kernel program as a function of whole arrays: whatever the buffers hold when the region is entered,
  its output array ends holding the bias row added, clipped at zero, times the weights.  The grid has ten points; point t reads rows
  10000·t … 10000·t + 9999 of the row-blocked input, the other inputs whole, and writes the same rows of the output, so
  the ten write-backs tile the output array and each is the layer's function of the whole arrays read through its rows.
-/
import proofs.«144158_j2422361555109_2_alg».proof.Proof.Gen.KernelIdeal.Frame
import proofs.«144158_j2422361555109_2_alg».proof.Proof.Bodies
import proofs.«144158_j2422361555109_2_alg».proof.Proof.LayerSpec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.KernelIdeal.Body

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block row `t`, column 0; the others at (0, 0). -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- Input window 1 has one block, the whole array, at every point. -/
theorem iblk_whole1 (c : Dev nD) (t : Fin cfg3.N) : iblk3 V c 1 t = (V c main_v79 : S1x3.Idx → EReal) := by
  obtain ⟨e0, e1, e2, e3, e4, e5, e6, e7⟩ := idx_facts t
  funext y
  unfold iblk3
  rw [View.read_apply]
  show V c main_v79 (((cfg3.win 1).blk t).view.emb y) = V c main_v79 y
  congr 1
  funext a
  apply Fin.ext
  match a with
  | ⟨0, _⟩ => show win3_1.index t (0 : Fin 2) * 1 + 1 * (y 0).val = (y 0).val; omega
  | ⟨1, _⟩ => show win3_1.index t (1 : Fin 2) * 3 + 1 * (y 1).val = (y 1).val; omega

/-- Input window 2 has one block, the whole array, at every point. -/
theorem iblk_whole2 (c : Dev nD) (t : Fin cfg3.N) : iblk3 V c 2 t = (V c main_arg9 : S3x1.Idx → EReal) := by
  obtain ⟨e0, e1, e2, e3, e4, e5, e6, e7⟩ := idx_facts t
  funext y
  unfold iblk3
  rw [View.read_apply]
  show V c main_arg9 (((cfg3.win 2).blk t).view.emb y) = V c main_arg9 y
  congr 1
  funext a
  apply Fin.ext
  match a with
  | ⟨0, _⟩ => show win3_2.index t (0 : Fin 2) * 3 + 1 * (y 0).val = (y 0).val; omega
  | ⟨1, _⟩ => show win3_2.index t (1 : Fin 2) * 1 + 1 * (y 1).val = (y 1).val; omega

/-- The row-blocked input's block at point `t` is rows `10000·t …` of its array. -/
theorem iblk_rows (c : Dev nD) (t : Fin cfg3.N) (p : Fin 10000) (k : Fin 3) (P : Fin 100000)
    (hP : P.val = win3_3.index t (0 : Fin 2) * 10000 + p.val) :
    (iblk3 V c 0 t : S10000x3.Idx → EReal) (ix2 p k) = (V c main_v78 : S100000x3.Idx → EReal) (ix2 P k) := by
  obtain ⟨e0, e1, e2, e3, e4, e5, e6, e7⟩ := idx_facts t
  unfold iblk3
  rw [View.read_apply]
  show V c main_v78 (((cfg3.win 0).blk t).view.emb (ix2 p k)) = V c main_v78 (ix2 P k)
  congr 1
  funext a
  apply Fin.ext
  match a with
  | ⟨0, _⟩ => show win3_0.index t (0 : Fin 2) * 10000 + 1 * p.val = P.val; omega
  | ⟨1, _⟩ => show win3_0.index t (1 : Fin 2) * 3 + 1 * k.val = k.val; omega

/-- What point `t` writes back is its block of the layer's function of the whole arrays as the region finds them. -/
theorem flushed_eq (c : Dev nD) (t : Fin cfg3.N) :
    (dat3 V c).flushed 3 t = ((cfg3.win 3).blk t).view.read (Elt Ideal) (biasReluProd (V c main_v78 : S100000x3.Idx → EReal) (V c main_v79 : S1x3.Idx → EReal) (V c main_arg9 : S3x1.Idx → EReal)) := by
  show (cfg3.win 3).cut (grid3.coords t) ((dat3 V c).after 3 t) = _
  rw [after3_3]
  unfold out3_3
  rw [View.canon_unit_zero hz]
  simp only [View.ld_unit_zero (S := S10000x3) hz, View.ld_unit_zero (S := S1x3) hz, View.ld_unit_zero (S := S3x1) hz]
  rw [iblk_whole1 V c t, iblk_whole2 V c t]
  obtain ⟨e0, e1, e2, e3, e4, e5, e6, e7⟩ := idx_facts t
  funext j
  show k3_pay1 (F := Ideal) (iblk3 V c 0 t) (V c main_v79 : S1x3.Idx → EReal) (V c main_arg9 : S3x1.Idx → EReal) j = (biasReluProd (V c main_v78 : S100000x3.Idx → EReal) (V c main_v79 : S1x3.Idx → EReal) (V c main_arg9 : S3x1.Idx → EReal)) (((cfg3.win 3).blk t).view.emb j)
  refine pay3_block (V c main_v78 : S100000x3.Idx → EReal) (iblk3 V c 0 t) _ _ (win3_3.index t (0 : Fin 2)) (fun p k P hP => iblk_rows V c t p k P hP) j _ ?_ ?_
  · show win3_3.index t (0 : Fin 2) * 10000 + 1 * (j 0).val = win3_3.index t (0 : Fin 2) * 10000 + (j 0).val; omega
  · show win3_3.index t (1 : Fin 2) * 1 + 1 * (j 1).val = (j 1).val; omega

/-- An index of the output array is in point `t`'s block iff each coordinate is in the block's range on its axis. -/
theorem mem_blk (t : Fin cfg3.N) (i : S100000x1.Idx) :
    i ∈ ((cfg3.win 3).blk t).view.set ↔ ∀ a : Fin 2, win3_3.index t a * S10000x1.size a ≤ (i a).val ∧ (i a).val < win3_3.index t a * S10000x1.size a + S10000x1.size a := by
  show i ∈ ((View.whole main_v80).slice (win3_3.rect t)).set ↔ _
  rw [View.set_slice_whole, Rect.mem_set_unit]
  exact Iff.rfl

/-- Every index of the output array is in the block of the point its row falls in. -/
theorem cover (i : S100000x1.Idx) :
    ∃ t : Fin cfg3.N, (cfg3.win 3).flush t = true ∧ i ∈ ((cfg3.win 3).blk t).view.set := by
  have hi0 : (i 0).val < 100000 := (i 0).isLt
  have hi1 : (i 1).val < 1 := (i 1).isLt
  have hN : cfg3.N = 10 := N_3
  let t : Fin cfg3.N := ⟨(i 0).val / 10000, by rw [hN]; omega⟩
  obtain ⟨e0, e1, e2, e3, e4, e5, e6, e7⟩ := idx_facts t
  have ht : t.val = (i 0).val / 10000 := rfl
  refine ⟨t, flush3_3 t, ?_⟩
  rw [mem_blk]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 1 ≤ (i 1).val ∧ (i 1).val < win3_3.index t (1 : Fin 2) * 1 + 1; omega

/-- The output array after the region: the layer's function of the arrays the region was entered with. -/
theorem final (c : Dev nD) : (dat3 V c).arrAt 3 cfg3.N = (biasReluProd (V c main_v78 : S100000x3.Idx → EReal) (V c main_v79 : S1x3.Idx → EReal) (V c main_arg9 : S3x1.Idx → EReal)) :=
  (dat3 V c).arrAt_eq_of_cover 3 (biasReluProd (V c main_v78 : S100000x3.Idx → EReal) (V c main_v79 : S1x3.Idx → EReal) (V c main_arg9 : S3x1.Idx → EReal)) (fun t _ => flushed_eq V c t) (cover)

end Cert.KernelIdeal.Region3

end
-- ==== Proof.Region4.lean ====
/-
  Region 4 of the kernel program as a function of whole arrays: whatever the buffers hold when the region is entered,
  its output array ends holding the logistic function of the input column plus the bias entry.  The grid has ten points; point t reads rows
  10000·t … 10000·t + 9999 of the row-blocked input, the other inputs whole, and writes the same rows of the output, so
  the ten write-backs tile the output array and each is the layer's function of the whole arrays read through its rows.
-/
import proofs.«144158_j2422361555109_2_alg».proof.Proof.Gen.KernelIdeal.Frame
import proofs.«144158_j2422361555109_2_alg».proof.Proof.Bodies
import proofs.«144158_j2422361555109_2_alg».proof.Proof.LayerSpec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen Cert.KernelIdeal.Body

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block row `t`, column 0; the others at (0, 0). -/
theorem idx_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- Input window 1 has one block, the whole array, at every point. -/
theorem iblk_whole1 (c : Dev nD) (t : Fin cfg4.N) : iblk4 V c 1 t = (V c main_v81 : S1x1.Idx → EReal) := by
  obtain ⟨e0, e1, e2, e3, e4, e5⟩ := idx_facts t
  funext y
  unfold iblk4
  rw [View.read_apply]
  show V c main_v81 (((cfg4.win 1).blk t).view.emb y) = V c main_v81 y
  congr 1
  funext a
  apply Fin.ext
  match a with
  | ⟨0, _⟩ => show win4_1.index t (0 : Fin 2) * 1 + 1 * (y 0).val = (y 0).val; omega
  | ⟨1, _⟩ => show win4_1.index t (1 : Fin 2) * 1 + 1 * (y 1).val = (y 1).val; omega

/-- The row-blocked input's block at point `t` is rows `10000·t …` of its array. -/
theorem iblk_rows (c : Dev nD) (t : Fin cfg4.N) (p : Fin 10000) (k : Fin 1) (P : Fin 100000)
    (hP : P.val = win4_2.index t (0 : Fin 2) * 10000 + p.val) :
    (iblk4 V c 0 t : S10000x1.Idx → EReal) (ix2 p k) = (V c main_v80 : S100000x1.Idx → EReal) (ix2 P k) := by
  obtain ⟨e0, e1, e2, e3, e4, e5⟩ := idx_facts t
  unfold iblk4
  rw [View.read_apply]
  show V c main_v80 (((cfg4.win 0).blk t).view.emb (ix2 p k)) = V c main_v80 (ix2 P k)
  congr 1
  funext a
  apply Fin.ext
  match a with
  | ⟨0, _⟩ => show win4_0.index t (0 : Fin 2) * 10000 + 1 * p.val = P.val; omega
  | ⟨1, _⟩ => show win4_0.index t (1 : Fin 2) * 1 + 1 * k.val = k.val; omega

/-- What point `t` writes back is its block of the layer's function of the whole arrays as the region finds them. -/
theorem flushed_eq (c : Dev nD) (t : Fin cfg4.N) :
    (dat4 V c).flushed 2 t = ((cfg4.win 2).blk t).view.read (Elt Ideal) (biasLogistic (V c main_v80 : S100000x1.Idx → EReal) (V c main_v81 : S1x1.Idx → EReal)) := by
  show (cfg4.win 2).cut (grid4.coords t) ((dat4 V c).after 2 t) = _
  rw [after4_2]
  unfold out4_2
  rw [View.canon_unit_zero hz]
  simp only [View.ld_unit_zero (S := S10000x1) hz, View.ld_unit_zero (S := S1x1) hz]
  rw [iblk_whole1 V c t]
  obtain ⟨e0, e1, e2, e3, e4, e5⟩ := idx_facts t
  funext j
  show k4_pay1 (F := Ideal) (iblk4 V c 0 t) (V c main_v81 : S1x1.Idx → EReal) j = (biasLogistic (V c main_v80 : S100000x1.Idx → EReal) (V c main_v81 : S1x1.Idx → EReal)) (((cfg4.win 2).blk t).view.emb j)
  refine pay4_block (V c main_v80 : S100000x1.Idx → EReal) (iblk4 V c 0 t) _ (win4_2.index t (0 : Fin 2)) (fun p k P hP => iblk_rows V c t p k P hP) j _ ?_ ?_
  · show win4_2.index t (0 : Fin 2) * 10000 + 1 * (j 0).val = win4_2.index t (0 : Fin 2) * 10000 + (j 0).val; omega
  · show win4_2.index t (1 : Fin 2) * 1 + 1 * (j 1).val = (j 1).val; omega

/-- An index of the output array is in point `t`'s block iff each coordinate is in the block's range on its axis. -/
theorem mem_blk (t : Fin cfg4.N) (i : S100000x1.Idx) :
    i ∈ ((cfg4.win 2).blk t).view.set ↔ ∀ a : Fin 2, win4_2.index t a * S10000x1.size a ≤ (i a).val ∧ (i a).val < win4_2.index t a * S10000x1.size a + S10000x1.size a := by
  show i ∈ ((View.whole main_v82).slice (win4_2.rect t)).set ↔ _
  rw [View.set_slice_whole, Rect.mem_set_unit]
  exact Iff.rfl

/-- Every index of the output array is in the block of the point its row falls in. -/
theorem cover (i : S100000x1.Idx) :
    ∃ t : Fin cfg4.N, (cfg4.win 2).flush t = true ∧ i ∈ ((cfg4.win 2).blk t).view.set := by
  have hi0 : (i 0).val < 100000 := (i 0).isLt
  have hi1 : (i 1).val < 1 := (i 1).isLt
  have hN : cfg4.N = 10 := N_4
  let t : Fin cfg4.N := ⟨(i 0).val / 10000, by rw [hN]; omega⟩
  obtain ⟨e0, e1, e2, e3, e4, e5⟩ := idx_facts t
  have ht : t.val = (i 0).val / 10000 := rfl
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 1 ≤ (i 1).val ∧ (i 1).val < win4_2.index t (1 : Fin 2) * 1 + 1; omega

/-- The output array after the region: the layer's function of the arrays the region was entered with. -/
theorem final (c : Dev nD) : (dat4 V c).arrAt 2 cfg4.N = (biasLogistic (V c main_v80 : S100000x1.Idx → EReal) (V c main_v81 : S1x1.Idx → EReal)) :=
  (dat4 V c).arrAt_eq_of_cover 2 (biasLogistic (V c main_v80 : S100000x1.Idx → EReal) (V c main_v81 : S1x1.Idx → EReal)) (fun t _ => flushed_eq V c t) (cover)

end Cert.KernelIdeal.Region4

end
-- ==== Proof.RefBridge.lean ====
/-
  The reference program's stages, layer by layer, are the layer functions of its earlier stages.

  The reference computes each graph-convolution layer with whole-array host operations: a matrix product, the
  gather / scale / scatter-add aggregation, the bias broadcast along the rows and added, a maximum with zero, and the
  next matrix product; and it ends with the logistic function spelt as 1 / (1 + exp(−x)).  Read at an entry:
  the first product is Σ_k x[i, k] · w[k, j]; a bias add, the maximum with zero and the next product together are
  Σ_k max(a[i, k] + b[k], 0) · w[k, j], with the bias vector as the one row of a one-row matrix; and the last stage
  is logistic(a[i, 0] + b[0]), because the ideal logistic function is by definition 1 / (1 + exp(−x)) with the same
  conventions at the infinities.  The normalisation recomputed by the second and third layers is the same array as the
  first layer's, being the same operations of the same arguments.
-/
import proofs.«144158_j2422361555109_2_alg».proof.Proof.Gen.ReferenceIdeal.Read
import proofs.«144158_j2422361555109_2_alg».proof.Proof.LayerSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Bridge

open Cert.ReferenceIdeal Cert.ReferenceIdeal.Read Idealize.ShloMosaic Idealize.ShloMosaic.ValueIdx

variable (x0 : (⟨S100000x128, .f32⟩ : BufTy).Contents (Elt Ideal))
  (x1 : (⟨S2x6400000, .i32⟩ : BufTy).Contents (Elt Ideal))
  (x2 : (⟨S6400000, .f32⟩ : BufTy).Contents (Elt Ideal))
  (x3 : (⟨S128x12, .f32⟩ : BufTy).Contents (Elt Ideal))
  (x4 : (⟨S12, .f32⟩ : BufTy).Contents (Elt Ideal))
  (x5 : (⟨S12x6, .f32⟩ : BufTy).Contents (Elt Ideal))
  (x6 : (⟨S6, .f32⟩ : BufTy).Contents (Elt Ideal))
  (x7 : (⟨S6x3, .f32⟩ : BufTy).Contents (Elt Ideal))
  (x8 : (⟨S3, .f32⟩ : BufTy).Contents (Elt Ideal))
  (x9 : (⟨S3x1, .f32⟩ : BufTy).Contents (Elt Ideal))
  (x10 : (⟨S1, .f32⟩ : BufTy).Contents (Elt Ideal))

/-- The word of 1.0 is the real number one. -/
theorem ofBits_one_f32 : Ideal.ofBits .f32 0x3F800000#32 = 1 := by
  simp [Ideal.ofBits, Ideal.ieee, -EReal.coe_mul]; norm_num

/-- The first projection: the reference's `dot_general` of the features and the first weights is their matrix product. -/
theorem layer0 : matProd x0 x3 = val_main_v35 (F := Ideal) x0 x3 := by
  funext i
  obtain ⟨p, q, rfl⟩ : ∃ (p : Fin 100000) (q : Fin 12), i = ix2 p q := ⟨i 0, i 1, eq_ix2 i⟩
  rw [matProd_apply, val_main_v35_apply]
  refine Finset.sum_congr rfl fun k _ => ?_
  have e1 : lidx_main_v35 (ix2 p q) k = ix2 p k := funext fun a => Fin.ext (by
    match a with
    | ⟨0, _⟩ => rfl
    | ⟨1, _⟩ => rfl)
  have e2 : ridx_main_v35 (ix2 p q) k = ix2 k q := funext fun a => Fin.ext (by
    match a with
    | ⟨0, _⟩ => rfl
    | ⟨1, _⟩ => rfl)
  rw [e1, e2]

/-- The first aggregation with its bias added, clipped at zero, times the second weights is the reference's second projection. -/
theorem layer1 (h : S12.ShapeCasts S1x12) :
    biasReluProd (val_main_v48 (F := Ideal) x0 x1 x2 x3) (shapeCast S1x12 x4 h) x5
      = val_main_v84 (F := Ideal) x0 x1 x2 x3 x4 x5 := by
  funext i
  obtain ⟨p, q, rfl⟩ : ∃ (p : Fin 100000) (q : Fin 6), i = ix2 p q := ⟨i 0, i 1, eq_ix2 i⟩
  rw [biasReluProd_apply, val_main_v84_apply]
  refine Finset.sum_congr rfl fun k _ => ?_
  have e1 : lidx_main_v84 (ix2 p q) k = ix2 p k := funext fun a => Fin.ext (by
    match a with
    | ⟨0, _⟩ => rfl
    | ⟨1, _⟩ => rfl)
  have e2 : ridx_main_v84 (ix2 p q) k = ix2 k q := funext fun a => Fin.ext (by
    match a with
    | ⟨0, _⟩ => rfl
    | ⟨1, _⟩ => rfl)
  have e3 : idx_main_v49 (idx_main_v50 (ix2 p k)) = ix1 k := funext fun a => Fin.ext (by
    match a with
    | ⟨0, _⟩ => rfl)
  rw [e1, e2, val_main_v52_apply, val_main_v51_apply, val_main_v50_apply, val_main_v49_apply, e3,
    val_main_call2_v0_apply, val_main_call2_cst_apply, shapeCast_a_1a_apply]
  rfl

/-- The second aggregation with its bias added, clipped at zero, times the third weights is the reference's third projection. -/
theorem layer2 (h : S6.ShapeCasts S1x6) :
    biasReluProd (val_main_v97 (F := Ideal) x0 x1 x2 x3 x4 x5) (shapeCast S1x6 x6 h) x7
      = val_main_v133 (F := Ideal) x0 x1 x2 x3 x4 x5 x6 x7 := by
  funext i
  obtain ⟨p, q, rfl⟩ : ∃ (p : Fin 100000) (q : Fin 3), i = ix2 p q := ⟨i 0, i 1, eq_ix2 i⟩
  rw [biasReluProd_apply, val_main_v133_apply]
  refine Finset.sum_congr rfl fun k _ => ?_
  have e1 : lidx_main_v133 (ix2 p q) k = ix2 p k := funext fun a => Fin.ext (by
    match a with
    | ⟨0, _⟩ => rfl
    | ⟨1, _⟩ => rfl)
  have e2 : ridx_main_v133 (ix2 p q) k = ix2 k q := funext fun a => Fin.ext (by
    match a with
    | ⟨0, _⟩ => rfl
    | ⟨1, _⟩ => rfl)
  have e3 : idx_main_v98 (idx_main_v99 (ix2 p k)) = ix1 k := funext fun a => Fin.ext (by
    match a with
    | ⟨0, _⟩ => rfl)
  rw [e1, e2, val_main_v101_apply, val_main_v100_apply, val_main_v99_apply, val_main_v98_apply, e3,
    val_main_call5_v0_apply, val_main_call5_cst_apply, shapeCast_a_1a_apply]
  rfl

/-- The third aggregation with its bias added, clipped at zero, times the last weights is the reference's last projection. -/
theorem layer3 (h : S3.ShapeCasts S1x3) :
    biasReluProd (val_main_v146 (F := Ideal) x0 x1 x2 x3 x4 x5 x6 x7) (shapeCast S1x3 x8 h) x9
      = val_main_v151 (F := Ideal) x0 x1 x2 x3 x4 x5 x6 x7 x8 x9 := by
  funext i
  obtain ⟨p, q, rfl⟩ : ∃ (p : Fin 100000) (q : Fin 1), i = ix2 p q := ⟨i 0, i 1, eq_ix2 i⟩
  rw [biasReluProd_apply, val_main_v151_apply]
  refine Finset.sum_congr rfl fun k _ => ?_
  have e1 : lidx_main_v151 (ix2 p q) k = ix2 p k := funext fun a => Fin.ext (by
    match a with
    | ⟨0, _⟩ => rfl
    | ⟨1, _⟩ => rfl)
  have e2 : ridx_main_v151 (ix2 p q) k = ix2 k q := funext fun a => Fin.ext (by
    match a with
    | ⟨0, _⟩ => rfl
    | ⟨1, _⟩ => rfl)
  have e3 : idx_main_v147 (idx_main_v148 (ix2 p k)) = ix1 k := funext fun a => Fin.ext (by
    match a with
    | ⟨0, _⟩ => rfl)
  rw [e1, e2, val_main_v150_apply, val_main_v149_apply, val_main_v148_apply, val_main_v147_apply, e3,
    val_main_call8_v0_apply, val_main_call8_cst_apply, shapeCast_a_1a_apply]
  rfl

/-- The last projection plus its bias under the logistic function is the reference's 1 / (1 + exp(−·)) of the same sum. -/
theorem layer4 (h : S1.ShapeCasts S1x1) :
    biasLogistic (val_main_v151 (F := Ideal) x0 x1 x2 x3 x4 x5 x6 x7 x8 x9) (shapeCast S1x1 x10 h)
      = val_main_v160 (F := Ideal) x0 x1 x2 x3 x4 x5 x6 x7 x8 x9 x10 := by
  funext i
  obtain ⟨p, z, rfl⟩ : ∃ (p : Fin 100000) (z : Fin 1), i = ix2 p z := ⟨i 0, i 1, eq_ix2 i⟩
  have e3 : idx_main_v152 (idx_main_v153 (ix2 p z)) = ix1 (0 : Fin 1) := funext fun a => Fin.ext (by
    match a with
    | ⟨0, _⟩ => rfl)
  rw [biasLogistic_apply, val_main_v160_apply, val_main_v159_apply, val_main_cst_38_apply, val_main_v158_apply,
    val_main_v157_apply, val_main_cst_37_apply, val_main_v156_apply, val_main_v155_apply, val_main_v154_apply,
    val_main_v153_apply, val_main_v152_apply, e3, shapeCast_a_1a_apply]
  simp only [Ideal.hostDivf_def, Ideal.addf_def, Ideal.hostUnary_exp_def, Ideal.hostNegf_def, Ideal.negf_def,
    Ideal.ofBits_def, ofBits_one_f32, Ideal.logistic]

end Cert.ReferenceIdeal.Bridge

end
-- ==== Proof.RefNorm.lean ====
/-
  The reference recomputes, in its second and third layers, the self-looped index vectors and the symmetric
  normalisation from the edge list and the edge weights.  Each recomputation is the same sequence of operations of the
  same two arguments as the first layer's, so it is the same array.
-/
import proofs.«144158_j2422361555109_2_alg».proof.Proof.Gen.ReferenceIdeal.Read

set_option maxRecDepth 16384

noncomputable section

namespace Cert.ReferenceIdeal.Bridge

open Cert.ReferenceIdeal Cert.ReferenceIdeal.Read Idealize.ShloMosaic

variable (x1 : (⟨S2x6400000, .i32⟩ : BufTy).Contents (Elt Ideal)) (x2 : (⟨S6400000, .f32⟩ : BufTy).Contents (Elt Ideal))

theorem src2 : val_main_v54 (F := Ideal) x1 = val_main_v5 (F := Ideal) x1 := rfl
theorem src3 : val_main_v103 (F := Ideal) x1 = val_main_v5 (F := Ideal) x1 := rfl
theorem dst2 : val_main_v55 (F := Ideal) x1 = val_main_v6 (F := Ideal) x1 := rfl
theorem dst3 : val_main_v104 (F := Ideal) x1 = val_main_v6 (F := Ideal) x1 := rfl
theorem norm2 : val_main_v83 (F := Ideal) x1 x2 = val_main_v34 (F := Ideal) x1 x2 := rfl
theorem norm3 : val_main_v132 (F := Ideal) x1 x2 = val_main_v34 (F := Ideal) x1 x2 := rfl

end Cert.ReferenceIdeal.Bridge

end
-- ==== Proof.ChainLayers.lean ====
/-
  The kernel program's buffers at each segment boundary, as the reference's stages of the launch arguments.

  Region 0 leaves the first projection.  Then, three times: a stretch of host operations aggregates the projection over
  the graph (the same gather, scaling and scatter-add as the reference, of the same normalisation and index vectors)
  and lays the layer's bias out as a one-row matrix, and a region adds the bias, clips at zero and multiplies by the next
  weights — which is the reference's bias add, maximum with zero and next `dot_general`.  The last region adds the last
  bias and applies the logistic function, and a reshape drops the unit axis: the reference's 1 / (1 + exp(−x)) and its
  reshape.  So the result buffer ends at the reference's result stage of the launch arguments.
-/
import proofs.«144158_j2422361555109_2_alg».proof.Proof.Gen.KernelIdeal.Frame
import proofs.«144158_j2422361555109_2_alg».proof.Proof.Gen.ReferenceIdeal.Read
import proofs.«144158_j2422361555109_2_alg».proof.Proof.ChainArgs
import proofs.«144158_j2422361555109_2_alg».proof.Proof.ChainNorm
import proofs.«144158_j2422361555109_2_alg».proof.Proof.Region0
import proofs.«144158_j2422361555109_2_alg».proof.Proof.Region1
import proofs.«144158_j2422361555109_2_alg».proof.Proof.Region2
import proofs.«144158_j2422361555109_2_alg».proof.Proof.Region3
import proofs.«144158_j2422361555109_2_alg».proof.Proof.Region4
import proofs.«144158_j2422361555109_2_alg».proof.Proof.RefBridge
import proofs.«144158_j2422361555109_2_alg».proof.Proof.RefNorm
import Idealize.ShloMosaic.Lib.StableHlo.Run

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- Region 0: the first projection is the reference's. -/
theorem W6_v35 : W6 m ρ c (Proc.devRef .tc main_v35) = val_main_v35 (F := Ideal) (m ((c : Thread nD τ).loc main_arg0)) (m ((c : Thread nD τ).loc main_arg3)) := by
  refine (W6_arr m ρ c 2).trans ((Region0.final (V5 m ρ) c).trans ?_)
  have h0 : V5 m ρ c main_arg0 = (m ((c : Thread nD τ).loc main_arg0)) := W5_arg0 m ρ c
  have h1 : V5 m ρ c main_arg3 = (m ((c : Thread nD τ).loc main_arg3)) := W5_arg3 m ρ c
  rw [h0, h1]
  exact Cert.ReferenceIdeal.Bridge.layer0 _ _

/-- The aggregation of layer 1: the gather of the projection's rows by source, the scaling by the normalisation and the
    scatter-add by target are the reference's operations of the same arrays. -/
theorem W7_v48 : W7 m ρ c (Proc.devRef .tc main_v48) = val_main_v48 (F := Ideal) (m ((c : Thread nD τ).loc main_arg0)) (m ((c : Thread nD τ).loc main_arg1)) (m ((c : Thread nD τ).loc main_arg2)) (m ((c : Thread nD τ).loc main_arg3)) := by
  show after hostOps1 (W6 m ρ c) (Proc.devRef .tc main_v48) = _
  dsimp only [hostOps1]
  after_results_simp
  rw [W6_v35 m ρ c, W6_v34 m ρ c, W6_v5 m ρ c, W6_v6 m ρ c]
  rfl

/-- The bias of layer 1 as a one-row matrix. -/
theorem W7_v49 : W7 m ρ c (Proc.devRef .tc main_v49) = shapeCast S1x12 (m ((c : Thread nD τ).loc main_arg4)) shapeCasts_S12_S1x12 := by
  show after hostOps1 (W6 m ρ c) (Proc.devRef .tc main_v49) = _
  dsimp only [hostOps1]
  after_results_simp
  rw [W6_arg4 m ρ c]
  rfl

/-- Region 1: the next projection of the clipped, biased aggregation is the reference's. -/
theorem W8_v50 : W8 m ρ c (Proc.devRef .tc main_v50) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 3).trans ((Region1.final (V7 m ρ) c).trans ?_)
  have h0 : V7 m ρ c main_v48 = val_main_v48 (F := Ideal) (m ((c : Thread nD τ).loc main_arg0)) (m ((c : Thread nD τ).loc main_arg1)) (m ((c : Thread nD τ).loc main_arg2)) (m ((c : Thread nD τ).loc main_arg3)) := W7_v48 m ρ c
  have h1 : V7 m ρ c main_v49 = shapeCast S1x12 (m ((c : Thread nD τ).loc main_arg4)) shapeCasts_S12_S1x12 := W7_v49 m ρ c
  have h2 : V7 m ρ c main_arg5 = (m ((c : Thread nD τ).loc main_arg5)) := W7_arg5 m ρ c
  rw [h0, h1, h2]
  exact Cert.ReferenceIdeal.Bridge.layer1 _ _ _ _ _ _ _

/-- The aggregation of layer 2: the gather of the projection's rows by source, the scaling by the normalisation and the
    scatter-add by target are the reference's operations of the same arrays. -/
theorem W9_v63 : W9 m ρ c (Proc.devRef .tc main_v63) = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show after hostOps2 (W8 m ρ c) (Proc.devRef .tc main_v63) = _
  dsimp only [hostOps2]
  after_results_simp
  rw [W8_v50 m ρ c, W8_v34 m ρ c, W8_v5 m ρ c, W8_v6 m ρ c, ← Cert.ReferenceIdeal.Bridge.norm2, ← Cert.ReferenceIdeal.Bridge.src2, ← Cert.ReferenceIdeal.Bridge.dst2]
  rfl

/-- The bias of layer 2 as a one-row matrix. -/
theorem W9_v64 : W9 m ρ c (Proc.devRef .tc main_v64) = shapeCast S1x6 (m ((c : Thread nD τ).loc main_arg6)) shapeCasts_S6_S1x6 := by
  show after hostOps2 (W8 m ρ c) (Proc.devRef .tc main_v64) = _
  dsimp only [hostOps2]
  after_results_simp
  rw [W8_arg6 m ρ c]
  rfl

/-- Region 2: the next projection of the clipped, biased aggregation is the reference's. -/
theorem W10_v65 : W10 m ρ c (Proc.devRef .tc main_v65) = val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 3).trans ((Region2.final (V9 m ρ) c).trans ?_)
  have h0 : V9 m ρ c main_v63 = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := W9_v63 m ρ c
  have h1 : V9 m ρ c main_v64 = shapeCast S1x6 (m ((c : Thread nD τ).loc main_arg6)) shapeCasts_S6_S1x6 := W9_v64 m ρ c
  have h2 : V9 m ρ c main_arg7 = (m ((c : Thread nD τ).loc main_arg7)) := W9_arg7 m ρ c
  rw [h0, h1, h2]
  exact Cert.ReferenceIdeal.Bridge.layer2 _ _ _ _ _ _ _ _ _

/-- The aggregation of layer 3: the gather of the projection's rows by source, the scaling by the normalisation and the
    scatter-add by target are the reference's operations of the same arrays. -/
theorem W11_v78 : W11 m ρ c (Proc.devRef .tc main_v78) = val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show after hostOps3 (W10 m ρ c) (Proc.devRef .tc main_v78) = _
  dsimp only [hostOps3]
  after_results_simp
  rw [W10_v65 m ρ c, W10_v34 m ρ c, W10_v5 m ρ c, W10_v6 m ρ c, ← Cert.ReferenceIdeal.Bridge.norm3, ← Cert.ReferenceIdeal.Bridge.src3, ← Cert.ReferenceIdeal.Bridge.dst3]
  rfl

/-- The bias of layer 3 as a one-row matrix. -/
theorem W11_v79 : W11 m ρ c (Proc.devRef .tc main_v79) = shapeCast S1x3 (m ((c : Thread nD τ).loc main_arg8)) shapeCasts_S3_S1x3 := by
  show after hostOps3 (W10 m ρ c) (Proc.devRef .tc main_v79) = _
  dsimp only [hostOps3]
  after_results_simp
  rw [W10_arg8 m ρ c]
  rfl

/-- Region 3: the next projection of the clipped, biased aggregation is the reference's. -/
theorem W12_v80 : W12 m ρ c (Proc.devRef .tc main_v80) = val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 3).trans ((Region3.final (V11 m ρ) c).trans ?_)
  have h0 : V11 m ρ c main_v78 = val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := W11_v78 m ρ c
  have h1 : V11 m ρ c main_v79 = shapeCast S1x3 (m ((c : Thread nD τ).loc main_arg8)) shapeCasts_S3_S1x3 := W11_v79 m ρ c
  have h2 : V11 m ρ c main_arg9 = (m ((c : Thread nD τ).loc main_arg9)) := W11_arg9 m ρ c
  rw [h0, h1, h2]
  exact Cert.ReferenceIdeal.Bridge.layer3 _ _ _ _ _ _ _ _ _ _ _

/-- The last bias as a one-entry matrix. -/
theorem W13_v81 : W13 m ρ c (Proc.devRef .tc main_v81) = shapeCast S1x1 (m ((c : Thread nD τ).loc main_arg10)) shapeCasts_S1_S1x1 := by
  show after hostOps4 (W12 m ρ c) (Proc.devRef .tc main_v81) = _
  dsimp only [hostOps4]
  after_results_simp
  rw [W12_arg10 m ρ c]
  rfl

/-- The last projection is untouched by the reshape of the bias. -/
theorem W13_v80 : W13 m ρ c (Proc.devRef .tc main_v80) = val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (StableHlo.after_of_forall_not_mem (b := (Proc.devRef .tc main_v80)) hostOps4 (W12 m ρ c) (by nowrite hostOps4)).trans (W12_v80 m ρ c)

/-- Region 4: the logistic function of the last projection plus its bias is the reference's 1 / (1 + exp(−·)). -/
theorem W14_v82 : W14 m ρ c (Proc.devRef .tc main_v82) = val_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W14_arr m ρ c 2).trans ((Region4.final (V13 m ρ) c).trans ?_)
  have h0 : V13 m ρ c main_v80 = val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := W13_v80 m ρ c
  have h1 : V13 m ρ c main_v81 = shapeCast S1x1 (m ((c : Thread nD τ).loc main_arg10)) shapeCasts_S1_S1x1 := W13_v81 m ρ c
  rw [h0, h1]
  exact Cert.ReferenceIdeal.Bridge.layer4 _ _ _ _ _ _ _ _ _ _ _ _

/-- The result buffer, after the last reshape, is the reference's result stage of the launch arguments. -/
theorem W15_v83 : W15 m ρ c (Proc.devRef .tc main_v83) = val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show after hostOps5 (W14 m ρ c) (Proc.devRef .tc main_v83) = _
  dsimp only [hostOps5]
  after_results_simp
  rw [W14_v82 m ρ c]
  rfl

end Cert.KernelIdeal.Chain

end
-- ==== Proof.lean ====
/-
  A three-layer graph convolution network with a logistic read-out, over 100000 nodes and 6400000 weighted edges.

  Both programs first turn the edge list into self-looped source and target index vectors and a symmetric
  normalisation  norm[e] = deg^(-1/2)[src e] · w[e] · deg^(-1/2)[dst e],  and each layer is
      h' = relu( scatter-add over targets of  norm[e] · (h · W)[src e]  +  b ).
  The reference does everything with whole-array host operations and recomputes the normalisation in every layer.
  The kernel program computes the normalisation once, keeps the gathers and scatter-adds on the host, and runs five
  row-blocked kernels of ten blocks of 10000 rows each: the first projection X · W1; three times "add the previous
  layer's bias, clip at zero, multiply by the next weights"; and "add the last bias, apply the logistic function".

  At the ideal instance a change of float format is the identity, a matrix-unit product into the zero accumulator and
  the host's `dot_general` are both the plain sum Σ_k a[i, k] · w[k, j] (sums over the extended reals are commutative
  and associative, so no finiteness is needed), a block of rows of such a layer is the layer of the whole arrays read
  through those rows, and the logistic function is by definition 1 / (1 + exp(−x)).  So, boundary by boundary, the
  kernel program's buffers are the reference's stages of the same arguments, and the two results are equal entry by
  entry.

  The three frames are the generated frame certificates (the reference's is its generated run with the result
  dropped); the idealization rewrote nothing, so `preserves` is `True`.
-/
import proofs.«144158_j2422361555109_2_alg».proof.Defs
import proofs.«144158_j2422361555109_2_alg».proof.Proof.Gen.Kernel
import proofs.«144158_j2422361555109_2_alg».proof.Proof.Gen.Kernel.Frame
import proofs.«144158_j2422361555109_2_alg».proof.Proof.Gen.KernelIdeal
import proofs.«144158_j2422361555109_2_alg».proof.Proof.Gen.KernelIdeal.Frame
import proofs.«144158_j2422361555109_2_alg».proof.Proof.Gen.ReferenceIdeal
import proofs.«144158_j2422361555109_2_alg».proof.Proof.Gen.ReferenceIdeal.Run
import proofs.«144158_j2422361555109_2_alg».proof.Proof.Gen.ReferenceIdeal.Read
import proofs.«144158_j2422361555109_2_alg».proof.Proof.Gen.Pre_finite_inputs
import proofs.«144158_j2422361555109_2_alg».proof.Proof.KernelRun
import proofs.«144158_j2422361555109_2_alg».proof.Proof.ChainLayers
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the reference's result stage of the (agreeing) arguments. -/
theorem algebraic : Cert.algebraic_KernelIdeal_ReferenceIdeal := by
  intro m ρ m' ρ' _ hagree
  refine ⟨fun c => Cert.ReferenceIdeal.Read.val_main_v161 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.W15_v83 m ρ c), (h c).2⟩)
      (Cert.KernelIdeal.Result.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v161_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
